-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S1x32 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x512 .f32) (main_arg5 : FVec F S32 .f32) (main_arg6 : FVec F S32x32 .f32) (main_arg7 : FVec F S32 .f32) (main_arg8 : FVec F S1x32 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x40960 .f32) (main_arg1 : FVec F S4096x40960 .f32) (main_arg2 : FVec F S256x40960 .f32) (main_arg3 : FVec F S256 .f32) (main_arg4 : FVec F S32x512 .f32) (main_arg5 : FVec F S32 .f32) (main_arg6 : FVec F S32x32 .f32) (main_arg7 : FVec F S32 .f32) (main_arg8 : FVec F S1x32 .f32) (main_arg9 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S256x40960 .f32 := Host.absf main_arg2
  let main_cst_2 : FVec F S_ .f32 := constant S_ .f32 0x7F800000#32
  let main_v10 : FVec F S256x40960 .f32 := broadcastInDim S256x40960 ![] bcast_S_S256x40960 main_cst_2
  let main_v11 : IVec S256x40960 1 := cmpf .olt main_v9 main_v10
  let main_c_3 : IVec S_ 1 := constantI S_ 1 1#1
  let main_v12 : IVec S_ 1 := (fun x v => Host.reduce IntOp.andi x v reducesTo_S256x40960_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S40960x256 : Shape := ⟨2, ![40960, 256]⟩
abbrev S1x256 : Shape := ⟨2, ![1, 256]⟩
abbrev S32x256 : Shape := ⟨2, ![32, 256]⟩
abbrev S1x1 : Shape := ⟨2, ![1, 1]⟩
abbrev S4096x1 : Shape := ⟨2, ![4096, 1]⟩
abbrev S512x2048 : Shape := ⟨2, ![512, 2048]⟩
abbrev S512x1 : Shape := ⟨2, ![512, 1]⟩
abbrev S512x256 : Shape := ⟨2, ![512, 256]⟩
abbrev S2048x256 : Shape := ⟨2, ![2048, 256]⟩
abbrev S256x32 : Shape := ⟨2, ![256, 32]⟩
abbrev S512x32 : Shape := ⟨2, ![512, 32]⟩
abbrev S32x1 : Shape := ⟨2, ![32, 1]⟩

abbrev nBuf : Space → Nat
  | .hbm => 23
  | .vmem => 17
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S40960x256, .f32⟩
  | .hbm, ⟨11, _⟩ => ⟨S40960x256, .bf16⟩
  | .hbm, ⟨12, _⟩ => ⟨S1x256, .f32⟩
  | .hbm, ⟨13, _⟩ => ⟨S32x256, .f32⟩
  | .hbm, ⟨14, _⟩ => ⟨S32x256, .bf16⟩
  | .hbm, ⟨15, _⟩ => ⟨S32x256, .f32⟩
  | .hbm, ⟨16, _⟩ => ⟨S32x256, .bf16⟩
  | .hbm, ⟨17, _⟩ => ⟨S1x32, .f32⟩
  | .hbm, ⟨18, _⟩ => ⟨S32x32, .bf16⟩
  | .hbm, ⟨19, _⟩ => ⟨S1x32, .f32⟩
  | .hbm, ⟨20, _⟩ => ⟨S1x32, .bf16⟩
  | .hbm, ⟨21, _⟩ => ⟨S1x1, .f32⟩
  | .hbm, ⟨22, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S40960x256, .bf16⟩
  | .local _ .vmem, ⟨5, _⟩ => ⟨S1x256, .f32⟩
  | .local _ .vmem, ⟨6, _⟩ => ⟨S32x256, .bf16⟩
  | .local _ .vmem, ⟨7, _⟩ => ⟨S32x256, .bf16⟩
  | .local _ .vmem, ⟨8, _⟩ => ⟨S1x32, .f32⟩
  | .local _ .vmem, ⟨9, _⟩ => ⟨S32x32, .bf16⟩
  | .local _ .vmem, ⟨10, _⟩ => ⟨S1x32, .f32⟩
  | .local _ .vmem, ⟨11, _⟩ => ⟨S1x32, .bf16⟩
  | .local _ .vmem, ⟨12, _⟩ => ⟨S1x1, .f32⟩
  | .local _ .vmem, ⟨13, _⟩ => ⟨S512x1, .f32⟩
  | .local _ .vmem, ⟨14, _⟩ => ⟨S512x1, .f32⟩
  | .local _ .vmem, ⟨15, _⟩ => ⟨S512x256, .f32⟩
  | .local _ .vmem, ⟨16, _⟩ => ⟨S512x256, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![8, 20], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c19_i32 : BitVec 32 := 19#32
  let v24 : BitVec 1 := Scalar.cmpi .eq arg1 c19_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S40960x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  transposes_S256x40960_S40960x256_1_0 : S256x40960.Transposes [1, 0] S40960x256
  bitsLt_bf16_f32 : FTy.bits .bf16 < FTy.bits .f32
  shapeCasts_S256_S1x256 : S256.ShapeCasts S1x256
  slices_S32x512_S32x256_0_0 : S32x512.Slices ![0, 0] S32x256
  slices_S32x512_S32x256_0_256 : S32x512.Slices ![0, 256] S32x256
  shapeCasts_S32_S1x32 : S32.ShapeCasts S1x32
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S2048x256 : 0 < S2048x256.numel
  shapeCasts_S2048x256_S2048x256 : S2048x256.ShapeCasts S2048x256
  inb_S512x2048_S512x2048_0_0 : ∀ a, (![0, 0] : Fin 2 → Nat) a + S512x2048.size a ≤ S512x2048.size a
  h_S512x2048 : 0 < S512x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  transposes_S32x256_p1_0_S256x32 : S32x256.Transposes [1, 0] S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  transposes_S32x32_p1_0_S32x32 : S32x32.Transposes [1, 0] S32x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x2048_S2048x256_S512x256_1_0_0_1_n_n_wf : DotDims.WF S512x2048 S2048x256 S512x256 [1] [0] [0] [1] [] []
  dot_S512x256_S256x32_S512x32_1_0_0_1_n_n_wf : DotDims.WF S512x256 S256x32 S512x32 [1] [0] [0] [1] [] []
  dot_S512x32_S32x32_S512x32_1_0_0_1_n_n_wf : DotDims.WF S512x32 S32x32 S512x32 [1] [0] [0] [1] [] []
  dot_S512x32_S32x1_S512x1_1_0_0_1_n_n_wf : DotDims.WF S512x32 S32x1 S512x1 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S40960x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x40960.size a
  hwx0_0 : ∀ i : grid0.Coords, EltTy.bits .f32 = 32 ∨ (Rect.block (s := S4096x40960) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x40960.size a
  hwx0_1 : ∀ i : grid0.Coords, EltTy.bits .f32 = 32 ∨ (Rect.block (s := S4096x40960) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40960x256.size a ≤ S40960x256.size a
  hwx0_2 : ∀ i : grid0.Coords, EltTy.bits .bf16 = 32 ∨ (Rect.block (s := S40960x256) S40960x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x256.size a
  hwx0_4 : ∀ i : grid0.Coords, EltTy.bits .bf16 = 32 ∨ (Rect.block (s := S32x256) S32x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x256.size a
  hwx0_5 : ∀ i : grid0.Coords, EltTy.bits .bf16 = 32 ∨ (Rect.block (s := S32x256) S32x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .bf16 = 32 ∨ (Rect.block (s := S32x32) S32x32.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .bf16 = 32 ∨ (Rect.block (s := S1x32) S1x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S40960x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S512x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S4096x40960 : Shape := ⟨2, ![4096, 40960]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S40960x256 : Shape := ⟨2, ![40960, 256]⟩
abbrev S4096x256 : Shape := ⟨2, ![4096, 256]⟩
abbrev S1x256 : Shape := ⟨2, ![1, 256]⟩
abbrev S_ : Shape := ⟨0, ![]⟩
abbrev S4096x512 : Shape := ⟨2, ![4096, 512]⟩
abbrev S512x32 : Shape := ⟨2, ![512, 32]⟩
abbrev S4096x32 : Shape := ⟨2, ![4096, 32]⟩
abbrev S32x1 : Shape := ⟨2, ![32, 1]⟩
abbrev S4096x1 : Shape := ⟨2, ![4096, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S256x40960, .f32⟩
  | .hbm, ⟨3, _⟩ => ⟨S256, .f32⟩
  | .hbm, ⟨4, _⟩ => ⟨S32x512, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S40960x256, .f32⟩
  | .hbm, ⟨11, _⟩ => ⟨S4096x256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x256, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .f32⟩
  | .hbm, ⟨23, _⟩ => ⟨S40960x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S4096x512, .f32⟩
  | .hbm, ⟨37, _⟩ => ⟨S512x32, .f32⟩
  | .hbm, ⟨38, _⟩ => ⟨S4096x32, .f32⟩
  | .hbm, ⟨39, _⟩ => ⟨S1x32, .f32⟩
  | .hbm, ⟨40, _⟩ => ⟨S4096x32, .f32⟩
  | .hbm, ⟨41, _⟩ => ⟨S4096x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x32, .f32⟩
  | .hbm, ⟨46, _⟩ => ⟨S4096x32, .f32⟩
  | .hbm, ⟨47, _⟩ => ⟨S_, .f32⟩
  | .hbm, ⟨48, _⟩ => ⟨S4096x32, .f32⟩
  | .hbm, ⟨49, _⟩ => ⟨S4096x32, .f32⟩
  | .hbm, ⟨50, _⟩ => ⟨S32x32, .f32⟩
  | .hbm, ⟨51, _⟩ => ⟨S4096x32, .f32⟩
  | .hbm, ⟨52, _⟩ => ⟨S1x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x32, .f32⟩
  | .hbm, ⟨59, _⟩ => ⟨S4096x32, .f32⟩
  | .hbm, ⟨60, _⟩ => ⟨S_, .f32⟩
  | .hbm, ⟨61, _⟩ => ⟨S4096x32, .f32⟩
  | .hbm, ⟨62, _⟩ => ⟨S4096x32, .f32⟩
  | .hbm, ⟨63, _⟩ => ⟨S32x1, .f32⟩
  | .hbm, ⟨64, _⟩ => ⟨S4096x1, .f32⟩
  | .hbm, ⟨65, _⟩ => ⟨S1x1, .f32⟩
  | .hbm, ⟨66, _⟩ => ⟨S4096x1, .f32⟩
  | .hbm, ⟨67, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_cst_4 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_5 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩

abbrev nD : Nat := 1
abbrev τ : Topo := Topo.v7x

variable {F : FTy → Type} [FloatOps F]

class Facts₀ : Prop where
  transposes_S256x40960_S40960x256_1_0 : S256x40960.Transposes [1, 0] S40960x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  concatenates_S4096x256_S4096x256_S4096x512_d1 : Shape.Concatenates [S4096x256, S4096x256] S4096x512 1
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S40960x256_S4096x256_1_0_0_1_n_n_wf : DotDims.WF S4096x40960 S40960x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x40960_S40960x256_S4096x256_1_0_0_1_n_n : DotDims S4096x40960 S40960x256 S4096x256 where
  lhsContracting := [1]
  rhsContracting := [0]
  lhsNonContracting := [0]
  rhsNonContracting := [1]
  lhsBatch := []
  rhsBatch := []
  wf := dot_S4096x40960_S40960x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.KPieces.lean ====
/-
  What each control case of the kernel body leaves behind, as values.

  The body has three cases by the position k of the grid point on the reduction axis: the first point (k = 0) zeroes the
  two accumulators and then adds its block products; a middle point adds its block products to what the point before left;
  the last point (k = 19) does the same and then computes the three dense layers from the finished accumulators.
  So the white accumulator after the body is  step (rows of the resident matrix at this point) (white block) (zero | before),
  the black one likewise, and at the last point the output block is the dense layers of the two accumulators just stored.
  A load of a whole buffer reads its contents; a load of what the same body stored whole reads the stored value.
  The statements hold for any float values.
-/
import proofs.«102913_j46497315946985_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The 2048 rows of the resident (transposed, 40960 x 256) matrix that the body loads at grid point `i`. -/
abbrev wslice (i : grid0.Coords) (x2 : Vec F S40960x256 .bf16)
    (hin : ∀ a, (k0_off1 i) a + S2048x256.size a ≤ S40960x256.size a) : Vec F S2048x256 .bf16 :=
  View.ld x2 (Rect.unit (s := S40960x256) (k0_off1 i) S2048x256.size hin)

theorem piece_B_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S40960x256 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : ¬cond0_1 i) (x0 : Vec F S512x2048 .f32) (x1 : Vec F S512x2048 .f32) (x2 : Vec F S40960x256 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 : Vec F S512x256 .f32) (xs1 : Vec F S512x256 .f32)
    (hin : ∀ a, (k0_off1 i) a + S2048x256.size a ≤ S40960x256.size a) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 (wslice i x2 hin) x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg15.read_unread,
    View.ld_unit_zero (S := S512x2048) hz, View.ld_unit_zero (S := S512x256) hz, View.ld_unit_zero (S := S1x256) hz, View.ld_unit_zero (S := S32x256) hz, View.ld_unit_zero (S := S1x32) hz, View.ld_unit_zero (S := S32x32) hz, View.ld_unit_zero (S := S1x1) hz]
  rfl

theorem piece_B_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S40960x256 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : ¬cond0_1 i) (x0 : Vec F S512x2048 .f32) (x1 : Vec F S512x2048 .f32) (x2 : Vec F S40960x256 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 : Vec F S512x256 .f32) (xs1 : Vec F S512x256 .f32)
    (hin : ∀ a, (k0_off1 i) a + S2048x256.size a ≤ S40960x256.size a) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 (wslice i x2 hin) x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg15.read_unread,
    View.ld_unit_zero (S := S512x2048) hz, View.ld_unit_zero (S := S512x256) hz, View.ld_unit_zero (S := S1x256) hz, View.ld_unit_zero (S := S32x256) hz, View.ld_unit_zero (S := S1x32) hz, View.ld_unit_zero (S := S32x32) hz, View.ld_unit_zero (S := S1x1) hz]
  rfl

theorem piece_C_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S40960x256 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : cond0_1 i) (x0 : Vec F S512x2048 .f32) (x1 : Vec F S512x2048 .f32) (x2 : Vec F S40960x256 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 : Vec F S512x256 .f32) (xs1 : Vec F S512x256 .f32)
    (hin : ∀ a, (k0_off1 i) a + S2048x256.size a ≤ S40960x256.size a) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay4 (wslice i x2 hin) x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg15.read_unread,
    View.ld_unit_zero (S := S512x2048) hz, View.ld_unit_zero (S := S512x256) hz, View.ld_unit_zero (S := S1x256) hz, View.ld_unit_zero (S := S32x256) hz, View.ld_unit_zero (S := S1x32) hz, View.ld_unit_zero (S := S32x32) hz, View.ld_unit_zero (S := S1x1) hz]
  rfl

theorem piece_C_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S40960x256 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : cond0_1 i) (x0 : Vec F S512x2048 .f32) (x1 : Vec F S512x2048 .f32) (x2 : Vec F S40960x256 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 : Vec F S512x256 .f32) (xs1 : Vec F S512x256 .f32)
    (hin : ∀ a, (k0_off1 i) a + S2048x256.size a ≤ S40960x256.size a) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay5 (wslice i x2 hin) x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg15.read_unread,
    View.ld_unit_zero (S := S512x2048) hz, View.ld_unit_zero (S := S512x256) hz, View.ld_unit_zero (S := S1x256) hz, View.ld_unit_zero (S := S32x256) hz, View.ld_unit_zero (S := S1x32) hz, View.ld_unit_zero (S := S32x32) hz, View.ld_unit_zero (S := S1x1) hz]
  rfl

theorem piece_A_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S40960x256 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : cond0_0 i) (hc1 : ¬cond0_1 i) (x0 : Vec F S512x2048 .f32) (x1 : Vec F S512x2048 .f32) (x2 : Vec F S40960x256 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32)
    (hin : ∀ a, (k0_off1 i) a + S2048x256.size a ≤ S40960x256.size a) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay4 (wslice i x2 hin) x0 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S512x256) hz, View.readCov_unit_zero (S := S512x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg15.read_unread,
    View.ld_unit_zero (S := S512x2048) hz, View.ld_unit_zero (S := S512x256) hz, View.ld_unit_zero (S := S1x256) hz, View.ld_unit_zero (S := S32x256) hz, View.ld_unit_zero (S := S1x32) hz, View.ld_unit_zero (S := S32x32) hz, View.ld_unit_zero (S := S1x1) hz]
  rfl

theorem piece_A_1 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S40960x256 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : cond0_0 i) (hc1 : ¬cond0_1 i) (x0 : Vec F S512x2048 .f32) (x1 : Vec F S512x2048 .f32) (x2 : Vec F S40960x256 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32)
    (hin : ∀ a, (k0_off1 i) a + S2048x256.size a ≤ S40960x256.size a) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay5 (wslice i x2 hin) x1 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S512x256) hz, View.readCov_unit_zero (S := S512x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg15.read_unread,
    View.ld_unit_zero (S := S512x2048) hz, View.ld_unit_zero (S := S512x256) hz, View.ld_unit_zero (S := S1x256) hz, View.ld_unit_zero (S := S32x256) hz, View.ld_unit_zero (S := S1x32) hz, View.ld_unit_zero (S := S32x32) hz, View.ld_unit_zero (S := S1x1) hz]
  rfl

theorem out_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S40960x256 .bf16) (harg4 : arg4.IsWhole) (arg5 : Memref sig .tc .vmem S1x256 .f32) (harg5 : arg5.IsWhole) (arg6 : Memref sig .tc .vmem S32x256 .bf16) (harg6 : arg6.IsWhole) (arg7 : Memref sig .tc .vmem S32x256 .bf16) (harg7 : arg7.IsWhole) (arg8 : Memref sig .tc .vmem S1x32 .f32) (harg8 : arg8.IsWhole) (arg9 : Memref sig .tc .vmem S32x32 .bf16) (harg9 : arg9.IsWhole) (arg10 : Memref sig .tc .vmem S1x32 .f32) (harg10 : arg10.IsWhole) (arg11 : Memref sig .tc .vmem S1x32 .bf16) (harg11 : arg11.IsWhole) (arg12 : Memref sig .tc .vmem S1x1 .f32) (harg12 : arg12.IsWhole) (arg13 : Memref sig .tc .vmem S512x1 .f32) (harg13 : arg13.IsWhole) (arg14 : Memref sig .tc .vmem S512x256 .f32) (harg14 : arg14.IsWhole) (arg15 : Memref sig .tc .vmem S512x256 .f32) (harg15 : arg15.IsWhole) (hc0 : ¬cond0_0 i) (hc1 : cond0_1 i) (x0 : Vec F S512x2048 .f32) (x1 : Vec F S512x2048 .f32) (x2 : Vec F S40960x256 .bf16) (x3 : Vec F S1x256 .f32) (x4 : Vec F S32x256 .bf16) (x5 : Vec F S32x256 .bf16) (x6 : Vec F S1x32 .f32) (x7 : Vec F S32x32 .bf16) (x8 : Vec F S1x32 .f32) (x9 : Vec F S1x32 .bf16) (x10 : Vec F S1x1 .f32) (xs0 : Vec F S512x256 .f32) (xs1 : Vec F S512x256 .f32)
    (hin : ∀ a, (k0_off1 i) a + S2048x256.size a ≤ S40960x256.size a) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay6 (k0_pay7 (k0_pay4 (wslice i x2 hin) x0 xs0) x3 (k0_pay5 (wslice i x2 hin) x1 xs1) x3 x4 x5 x6) x7 x8 x9 x10 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero hz, View.readCov_unit_zero (S := S512x256) _ hz, View.readCov_unit_zero (S := S512x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg14.read_unread, harg15.read_unread,
    View.ld_unit_zero (S := S512x2048) hz, View.ld_unit_zero (S := S512x256) hz, View.ld_unit_zero (S := S1x256) hz, View.ld_unit_zero (S := S32x256) hz, View.ld_unit_zero (S := S1x32) hz, View.ld_unit_zero (S := S32x32) hz, View.ld_unit_zero (S := S1x1) hz]
  rfl

end Cert.KernelIdeal.Pieces

end
-- ==== Proof.NetSpec.lean ====
/-
  The network, as mathematics over the extended reals.

  One board position is a pair of feature rows (white, black), each of 40960 entries. A shared 256 x 40960 matrix W and a
  bias turn each row into 256 numbers, clipped to [0, 1]:   side(x)_h = clip (sum_j x_j * W_{h j} + bias_h).
  The two clipped rows, side by side (512 numbers), go through three small dense layers, the first two clipped:
      l1_n = clip (sum_{k<256} white_k * A_{n k} + sum_{k<256} black_k * A_{n, 256 + k} + a_n)        (32 numbers)
      l2_n = clip (sum_{k<32} l1_k * B_{n k} + b_n)                                                    (32 numbers)
      out  =       sum_{k<32} l2_k * C_k + c                                                           (one number)
  The contraction of the 512 side-by-side numbers with row n of A is written here as its two halves, columns 0..255
  against the white row and columns 256..511 against the black row.
  clip z = min 1 (max 0 z); the constants are kept as the f32 words of 0.0 and 1.0, which both programs use.
  Only + and * of the extended reals appear, in sums whose order does not matter: no finiteness is needed anywhere.
-/
import Idealize.ShloMosaic.PureOps.Ideal
import Idealize.ShloMosaic.Lib.ValueIdx

noncomputable section

namespace Cert.NetSpec

open Idealize.ShloMosaic Idealize.ShloMosaic.ValueIdx

/-- The clipped ramp `min 1 (max 0 z)`. -/
def clip (z : EReal) : EReal :=
  min (Ideal.ofBits .f32 0x3F800000#32) (max (Ideal.ofBits .f32 0x00000000#32) z)

/-- First dense layer at unit `n`, from the two clipped feature rows; `Alo` holds columns 0..255 of the layer's matrix and
    `Ahi` columns 256..511. -/
def l1 (w b : Fin 256 → EReal) (Alo Ahi : Fin 32 → Fin 256 → EReal) (a : Fin 32 → EReal) (n : Fin 32) : EReal :=
  clip (((∑ k : Fin 256, w k * Alo n k) + (∑ k : Fin 256, b k * Ahi n k)) + a n)

/-- Second dense layer at unit `n`. -/
def l2 (v : Fin 32 → EReal) (B : Fin 32 → Fin 32 → EReal) (b : Fin 32 → EReal) (n : Fin 32) : EReal :=
  clip ((∑ k : Fin 32, v k * B n k) + b n)

/-- Output layer (no clip). -/
def l3 (v : Fin 32 → EReal) (C : Fin 32 → EReal) (c : EReal) : EReal :=
  (∑ k : Fin 32, v k * C k) + c

/-- The three layers after the feature transform. -/
def head (w b : Fin 256 → EReal) (Alo Ahi : Fin 32 → Fin 256 → EReal) (a : Fin 32 → EReal)
    (B : Fin 32 → Fin 32 → EReal) (b2 : Fin 32 → EReal) (C : Fin 32 → EReal) (c : EReal) : EReal :=
  l3 (fun n => l2 (fun k => l1 w b Alo Ahi a k) B b2 n) C c

/-- Column `k` of the left half of a 32 x 512 matrix. -/
abbrev lo (k : Fin 256) : Fin 512 := ⟨k.val, Nat.lt_of_lt_of_le k.isLt (by norm_num)⟩
/-- Column `256 + k`, in the right half. -/
abbrev hi (k : Fin 256) : Fin 512 := ⟨256 + k.val, by have := k.isLt; omega⟩

/-- One side's transformed feature row `r` at unit `h`. -/
def side (x : FVec Ideal ⟨2, ![4096, 40960]⟩ .f32) (W : FVec Ideal ⟨2, ![256, 40960]⟩ .f32)
    (fb : FVec Ideal ⟨1, ![256]⟩ .f32) (r : Fin 4096) (h : Fin 256) : EReal :=
  clip ((∑ j : Fin 40960, x (ix2 r j) * W (ix2 h j)) + fb (ix1 h))

/-- The whole result: a 4096 x 1 array, row `r` the network's output on position `r`. -/
def net (xw xb : FVec Ideal ⟨2, ![4096, 40960]⟩ .f32) (W : FVec Ideal ⟨2, ![256, 40960]⟩ .f32)
    (fb : FVec Ideal ⟨1, ![256]⟩ .f32) (A : FVec Ideal ⟨2, ![32, 512]⟩ .f32) (a : FVec Ideal ⟨1, ![32]⟩ .f32)
    (B : FVec Ideal ⟨2, ![32, 32]⟩ .f32) (b : FVec Ideal ⟨1, ![32]⟩ .f32)
    (C : FVec Ideal ⟨2, ![1, 32]⟩ .f32) (c : FVec Ideal ⟨1, ![1]⟩ .f32) : FVec Ideal ⟨2, ![4096, 1]⟩ .f32 :=
  fun i => head (side xw W fb (i 0)) (side xb W fb (i 0))
    (fun n k => A (ix2 n (lo k))) (fun n k => A (ix2 n (hi k))) (fun n => a (ix1 n))
    (fun n k => B (ix2 n k)) (fun n => b (ix1 n)) (fun k => C (ix2 (0 : Fin 1) k)) (c (ix1 (0 : Fin 1)))

end Cert.NetSpec

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.KPayloads.lean ====
/-
  What the kernel body's stored values are, entry by entry, over the extended reals.

  The body stores four kinds of value. (1) The zero block that opens an accumulation. (2) An accumulator block plus the
  product of a 512 x 2048 block of features with a 2048 x 256 block of the transposed feature matrix: entry (p, n) is
  acc(p, n) + sum_k x(p, k) * w(k, n). (3) From the two finished accumulators, the bias row and the two halves of the first
  dense layer's matrix, the first dense layer: entry (p, n) is NetSpec.l1 of the two clipped rows p. (4) From that, the
  second layer and the output layer: entry (p, 0) is NetSpec.l3 of NetSpec.l2 of row p.
  A change of float format is the identity on the extended reals, a cast to the same shape is the identity, a transposed
  operand of a product swaps that operand's two indices, and a product into a zero accumulator is the plain sum of products.
-/
import proofs.«102913_j46497315946985_2_alg».proof.Proof.Gen.KernelIdeal.Skeleton
import proofs.«102913_j46497315946985_2_alg».proof.Proof.NetSpec
import proofs.«102913_j46497315946985_2_alg».proof.Proof.LibPlainMatmul
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx Cert.NetSpec

/-- The block that opens the white accumulation is zero everywhere. -/
theorem zero1_apply (i : S512x256.Idx) : k0_pay1 (F := Ideal) i = Ideal.ofBits .f32 0x00000000#32 := by
  unfold k0_pay1
  rw [shapeCast_self]
  rfl

/-- The block that opens the black accumulation is zero everywhere. -/
theorem zero2_apply (i : S512x256.Idx) : k0_pay2 (F := Ideal) i = Ideal.ofBits .f32 0x00000000#32 := by
  unfold k0_pay2
  rw [shapeCast_self]
  rfl

theorem hplain1 : dot_S512x2048_S2048x256_S512x256_1_0_0_1_n_n = DotDims.plain 512 2048 256 := rfl
theorem hplain2 : dot_S512x256_S256x32_S512x32_1_0_0_1_n_n = DotDims.plain 512 256 32 := rfl
theorem hplain3 : dot_S512x32_S32x32_S512x32_1_0_0_1_n_n = DotDims.plain 512 32 32 := rfl
theorem hplain4 : dot_S512x32_S32x1_S512x1_1_0_0_1_n_n = DotDims.plain 512 32 1 := rfl

/-- One accumulation step of the white side: `acc + x * w` at entry (p, n). -/
theorem acc1_apply (v6 : Vec Ideal S2048x256 .bf16) (v8 : Vec Ideal S512x2048 .f32) (v12 : Vec Ideal S512x256 .f32)
    (p : Fin 512) (n : Fin 256) :
    k0_pay4 v6 v8 v12 (ix2 p n) = v12 (ix2 p n) + ∑ k : Fin 2048, v8 (ix2 p k) * v6 (ix2 k n) := by
  unfold k0_pay4 k0_pay3
  rw [shapeCast_self, shapeCast_self, addf_apply]
  refine congrArg (v12 (ix2 p n) + ·) ?_
  exact Cert.LibPlainMatmul.matmul_eq_plain_zero_apply _ hplain1 none (truncf .bf16 v8 bitsLt_bf16_f32) v6 p n

/-- One accumulation step of the black side. -/
theorem acc2_apply (v6 : Vec Ideal S2048x256 .bf16) (v10 : Vec Ideal S512x2048 .f32) (v18 : Vec Ideal S512x256 .f32)
    (p : Fin 512) (n : Fin 256) :
    k0_pay5 v6 v10 v18 (ix2 p n) = v18 (ix2 p n) + ∑ k : Fin 2048, v10 (ix2 p k) * v6 (ix2 k n) := by
  unfold k0_pay5 k0_pay3
  rw [shapeCast_self, shapeCast_self, addf_apply]
  refine congrArg (v18 (ix2 p n) + ·) ?_
  exact Cert.LibPlainMatmul.matmul_eq_plain_zero_apply _ hplain1 none (truncf .bf16 v10 bitsLt_bf16_f32) v6 p n

/-- The first dense layer of row `p`, from the two finished accumulators `v27`, `v36`, the bias row `v28` (read twice:
    `v37`), the two halves `v47`, `v51` of the layer's matrix and its bias row `v56`. -/
theorem l1_apply (v27 : Vec Ideal S512x256 .f32) (v28 : Vec Ideal S1x256 .f32) (v36 : Vec Ideal S512x256 .f32)
    (v37 : Vec Ideal S1x256 .f32) (v47 v51 : Vec Ideal S32x256 .bf16) (v56 : Vec Ideal S1x32 .f32)
    (p : Fin 512) (n : Fin 32) :
    k0_pay7 v27 v28 v36 v37 v47 v51 v56 (ix2 p n)
      = l1 (fun k => clip (v27 (ix2 p k) + v28 (ix2 (0 : Fin 1) k))) (fun k => clip (v36 (ix2 p k) + v37 (ix2 (0 : Fin 1) k)))
          (fun n k => v47 (ix2 n k)) (fun n k => v51 (ix2 n k)) (fun n => v56 (ix2 (0 : Fin 1) n)) n := by
  have e47 : ∀ (k : Fin 256) (n : Fin 32),
      transpose S256x32 [1, 0] v47 transposes_S32x256_p1_0_S256x32 (ix2 k n) = v47 (ix2 n k) :=
    fun k n => transpose_ix2_apply v47 _ k n
  have e51 : ∀ (k : Fin 256) (n : Fin 32),
      transpose S256x32 [1, 0] v51 transposes_S32x256_p1_0_S256x32 (ix2 k n) = v51 (ix2 n k) :=
    fun k n => transpose_ix2_apply v51 _ k n
  unfold k0_pay7 l1 clip
  simp only [truncf_apply, minimumf_apply, maximumf_apply, addf_apply, broadcast_apply, shapeCast_self,
    Cert.LibPlainMatmul.matmul_eq_plain_zero_apply _ hplain2 none, e47, e51, broadcastTo_1b_ab_apply,
    Ideal.ofBits_def]

/-- The second dense layer and the output layer of row `p`, from the first layer's block `v64`, the second layer's matrix
    `v65` and bias row `v69`, the output layer's row `v78` and bias cell `v82`. -/
theorem out_apply (v64 : FVec Ideal S512x32 .bf16) (v65 : Vec Ideal S32x32 .bf16) (v69 : Vec Ideal S1x32 .f32)
    (v78 : Vec Ideal S1x32 .bf16) (v82 : Vec Ideal S1x1 .f32) (p : Fin 512) (q : Fin 1) :
    k0_pay6 v64 v65 v69 v78 v82 (ix2 p q)
      = l3 (fun n => l2 (fun k => v64 (ix2 p k)) (fun n k => v65 (ix2 n k)) (fun n => v69 (ix2 (0 : Fin 1) n)) n)
          (fun k => v78 (ix2 (0 : Fin 1) k)) (v82 (ix2 (0 : Fin 1) (0 : Fin 1))) := by
  obtain rfl : q = 0 := Subsingleton.elim _ _
  have e65 : ∀ (k n : Fin 32),
      transpose S32x32 [1, 0] v65 transposes_S32x32_p1_0_S32x32 (ix2 k n) = v65 (ix2 n k) :=
    fun k n => transpose_ix2_apply v65 _ k n
  have e78 : ∀ (k : Fin 32) (u : Fin 1),
      transpose S32x1 [1, 0] v78 transposes_S1x32_p1_0_S32x1 (ix2 k u) = v78 (ix2 u k) :=
    fun k u => transpose_ix2_apply v78 _ k u
  unfold k0_pay6 l3 l2 clip
  simp only [truncf_apply, minimumf_apply, maximumf_apply, addf_apply, broadcast_apply, shapeCast_self,
    Cert.LibPlainMatmul.matmul_eq_plain_zero_apply _ hplain3 none,
    Cert.LibPlainMatmul.matmul_eq_plain_zero_apply _ hplain4 none, e65, e78, broadcastTo_1b_ab_apply,
    Ideal.ofBits_def]

end Cert.KernelIdeal.Payloads

end
-- ==== Proof.KBlocks.lean ====
/-
  What the kernel's windows hold, in terms of the program's ten argument arrays, over the extended reals.

  The grid point t = 20 q + s works on batch tile q (rows 512 q .. 512 q + 511) and reduction step s (columns
  2048 s .. 2048 s + 2047). The two feature windows hold that 512 x 2048 tile of the white and of the black features.
  The other nine windows hold whole small arrays that the program prepares before the kernel starts: the feature matrix
  transposed (so its entry (j, n) is W(n, j)), the biases as one-row matrices, the two halves of the first dense layer's
  matrix (columns 0..255 and 256..511), the other two layers' matrices. Changes of float format are the identity here.
  The rows of the transposed matrix that step s loads are rows 2048 s .. 2048 s + 2047.
-/
import proofs.«102913_j46497315946985_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Which block each window shows at a grid point (decided over the 160 points) -/

theorem idx_white : ∀ t : Fin cfg0.N, win0_0.index t 0 = t.val / 20 ∧ win0_0.index t 1 = t.val % 20 :=
  (by decide +kernel : ∀ t : Fin grid0.N, win0_0.index t 0 = t.val / 20 ∧ win0_0.index t 1 = t.val % 20)
theorem idx_black : ∀ t : Fin cfg0.N, win0_1.index t 0 = t.val / 20 ∧ win0_1.index t 1 = t.val % 20 :=
  (by decide +kernel : ∀ t : Fin grid0.N, win0_1.index t 0 = t.val / 20 ∧ win0_1.index t 1 = t.val % 20)
theorem idx_out : ∀ t : Fin cfg0.N, win0_11.index t 0 = t.val / 20 ∧ win0_11.index t 1 = 0 :=
  (by decide +kernel : ∀ t : Fin grid0.N, win0_11.index t 0 = t.val / 20 ∧ win0_11.index t 1 = 0)
theorem idx_res2 : ∀ t : Fin cfg0.N, win0_2.index t 0 = 0 ∧ win0_2.index t 1 = 0 :=
  (by decide +kernel : ∀ t : Fin grid0.N, win0_2.index t 0 = 0 ∧ win0_2.index t 1 = 0)
theorem idx_res3 : ∀ t : Fin cfg0.N, win0_3.index t 0 = 0 ∧ win0_3.index t 1 = 0 :=
  (by decide +kernel : ∀ t : Fin grid0.N, win0_3.index t 0 = 0 ∧ win0_3.index t 1 = 0)
theorem idx_res4 : ∀ t : Fin cfg0.N, win0_4.index t 0 = 0 ∧ win0_4.index t 1 = 0 :=
  (by decide +kernel : ∀ t : Fin grid0.N, win0_4.index t 0 = 0 ∧ win0_4.index t 1 = 0)
theorem idx_res5 : ∀ t : Fin cfg0.N, win0_5.index t 0 = 0 ∧ win0_5.index t 1 = 0 :=
  (by decide +kernel : ∀ t : Fin grid0.N, win0_5.index t 0 = 0 ∧ win0_5.index t 1 = 0)
theorem idx_res6 : ∀ t : Fin cfg0.N, win0_6.index t 0 = 0 ∧ win0_6.index t 1 = 0 :=
  (by decide +kernel : ∀ t : Fin grid0.N, win0_6.index t 0 = 0 ∧ win0_6.index t 1 = 0)
theorem idx_res7 : ∀ t : Fin cfg0.N, win0_7.index t 0 = 0 ∧ win0_7.index t 1 = 0 :=
  (by decide +kernel : ∀ t : Fin grid0.N, win0_7.index t 0 = 0 ∧ win0_7.index t 1 = 0)
theorem idx_res8 : ∀ t : Fin cfg0.N, win0_8.index t 0 = 0 ∧ win0_8.index t 1 = 0 :=
  (by decide +kernel : ∀ t : Fin grid0.N, win0_8.index t 0 = 0 ∧ win0_8.index t 1 = 0)
theorem idx_res9 : ∀ t : Fin cfg0.N, win0_9.index t 0 = 0 ∧ win0_9.index t 1 = 0 :=
  (by decide +kernel : ∀ t : Fin grid0.N, win0_9.index t 0 = 0 ∧ win0_9.index t 1 = 0)
theorem idx_res10 : ∀ t : Fin cfg0.N, win0_10.index t 0 = 0 ∧ win0_10.index t 1 = 0 :=
  (by decide +kernel : ∀ t : Fin grid0.N, win0_10.index t 0 = 0 ∧ win0_10.index t 1 = 0)
/-- The first of the 2048 matrix rows the body loads at point `t` is row 2048 (t mod 20); all 256 columns. -/
theorem off_rows : ∀ t : Fin cfg0.N, k0_off1 (grid0.coords t) 0 = 2048 * (t.val % 20) ∧ k0_off1 (grid0.coords t) 1 = 0 :=
  (by decide +kernel : ∀ t : Fin grid0.N, k0_off1 (grid0.coords t) 0 = 2048 * (t.val % 20) ∧ k0_off1 (grid0.coords t) 1 = 0)

/-! ## The two feature tiles -/

/-- The white tile at point `t`, entry (p, k): the white features at row 512 (t / 20) + p, column 2048 (t mod 20) + k. -/
theorem white_apply (c : Dev nD) (t : Fin cfg0.N) (p : Fin 512) (k : Fin 2048) (r : Fin 4096) (j : Fin 40960)
    (hr : r.val = 512 * (t.val / 20) + p.val) (hj : j.val = 2048 * (t.val % 20) + k.val) :
    (iblk m c 0 t : Vec Ideal S512x2048 .f32) (ix2 p k) = m ((c.tc : Thread nD τ).loc main_arg0) (ix2 r j) := by
  unfold iblk
  rw [View.read_apply]
  show V m c main_arg0 _ = _
  rw [V_main_arg0]
  refine congrArg _ (funext fun a => Fin.ext ?_)
  match a with
  | ⟨0, _⟩ => show win0_0.index t 0 * 512 + 1 * p.val = r.val; rw [(idx_white t).1, hr]; omega
  | ⟨1, _⟩ => show win0_0.index t 1 * 2048 + 1 * k.val = j.val; rw [(idx_white t).2, hj]; omega

/-- The black tile, likewise. -/
theorem black_apply (c : Dev nD) (t : Fin cfg0.N) (p : Fin 512) (k : Fin 2048) (r : Fin 4096) (j : Fin 40960)
    (hr : r.val = 512 * (t.val / 20) + p.val) (hj : j.val = 2048 * (t.val % 20) + k.val) :
    (iblk m c 1 t : Vec Ideal S512x2048 .f32) (ix2 p k) = m ((c.tc : Thread nD τ).loc main_arg1) (ix2 r j) := by
  unfold iblk
  rw [View.read_apply]
  show V m c main_arg1 _ = _
  rw [V_main_arg1]
  refine congrArg _ (funext fun a => Fin.ext ?_)
  match a with
  | ⟨0, _⟩ => show win0_1.index t 0 * 512 + 1 * p.val = r.val; rw [(idx_black t).1, hr]; omega
  | ⟨1, _⟩ => show win0_1.index t 1 * 2048 + 1 * k.val = j.val; rw [(idx_black t).2, hj]; omega

/-! ## The resident windows show their whole arrays -/

theorem res2_apply (c : Dev nD) (t : Fin cfg0.N) (p : Fin 40960) (q : Fin 256) :
    (iblk m c 2 t : S40960x256.Idx → EReal) (ix2 p q) = (V m c main_v1 : S40960x256.Idx → EReal) (ix2 p q) := by
  unfold iblk
  rw [View.read_apply]
  show V m c main_v1 _ = _
  refine congrArg _ (funext fun a => Fin.ext ?_)
  match a with
  | ⟨0, _⟩ => show win0_2.index t 0 * 40960 + 1 * p.val = p.val; rw [(idx_res2 t).1]; omega
  | ⟨1, _⟩ => show win0_2.index t 1 * 256 + 1 * q.val = q.val; rw [(idx_res2 t).2]; omega

theorem res3_apply (c : Dev nD) (t : Fin cfg0.N) (p : Fin 1) (q : Fin 256) :
    (iblk m c 3 t : S1x256.Idx → EReal) (ix2 p q) = (V m c main_v2 : S1x256.Idx → EReal) (ix2 p q) := by
  unfold iblk
  rw [View.read_apply]
  show V m c main_v2 _ = _
  refine congrArg _ (funext fun a => Fin.ext ?_)
  match a with
  | ⟨0, _⟩ => show win0_3.index t 0 * 1 + 1 * p.val = p.val; rw [(idx_res3 t).1]; omega
  | ⟨1, _⟩ => show win0_3.index t 1 * 256 + 1 * q.val = q.val; rw [(idx_res3 t).2]; omega

theorem res4_apply (c : Dev nD) (t : Fin cfg0.N) (p : Fin 32) (q : Fin 256) :
    (iblk m c 4 t : S32x256.Idx → EReal) (ix2 p q) = (V m c main_v4 : S32x256.Idx → EReal) (ix2 p q) := by
  unfold iblk
  rw [View.read_apply]
  show V m c main_v4 _ = _
  refine congrArg _ (funext fun a => Fin.ext ?_)
  match a with
  | ⟨0, _⟩ => show win0_4.index t 0 * 32 + 1 * p.val = p.val; rw [(idx_res4 t).1]; omega
  | ⟨1, _⟩ => show win0_4.index t 1 * 256 + 1 * q.val = q.val; rw [(idx_res4 t).2]; omega

theorem res5_apply (c : Dev nD) (t : Fin cfg0.N) (p : Fin 32) (q : Fin 256) :
    (iblk m c 5 t : S32x256.Idx → EReal) (ix2 p q) = (V m c main_v6 : S32x256.Idx → EReal) (ix2 p q) := by
  unfold iblk
  rw [View.read_apply]
  show V m c main_v6 _ = _
  refine congrArg _ (funext fun a => Fin.ext ?_)
  match a with
  | ⟨0, _⟩ => show win0_5.index t 0 * 32 + 1 * p.val = p.val; rw [(idx_res5 t).1]; omega
  | ⟨1, _⟩ => show win0_5.index t 1 * 256 + 1 * q.val = q.val; rw [(idx_res5 t).2]; omega

theorem res6_apply (c : Dev nD) (t : Fin cfg0.N) (p : Fin 1) (q : Fin 32) :
    (iblk m c 6 t : S1x32.Idx → EReal) (ix2 p q) = (V m c main_v7 : S1x32.Idx → EReal) (ix2 p q) := by
  unfold iblk
  rw [View.read_apply]
  show V m c main_v7 _ = _
  refine congrArg _ (funext fun a => Fin.ext ?_)
  match a with
  | ⟨0, _⟩ => show win0_6.index t 0 * 1 + 1 * p.val = p.val; rw [(idx_res6 t).1]; omega
  | ⟨1, _⟩ => show win0_6.index t 1 * 32 + 1 * q.val = q.val; rw [(idx_res6 t).2]; omega

theorem res7_apply (c : Dev nD) (t : Fin cfg0.N) (p : Fin 32) (q : Fin 32) :
    (iblk m c 7 t : S32x32.Idx → EReal) (ix2 p q) = (V m c main_v8 : S32x32.Idx → EReal) (ix2 p q) := by
  unfold iblk
  rw [View.read_apply]
  show V m c main_v8 _ = _
  refine congrArg _ (funext fun a => Fin.ext ?_)
  match a with
  | ⟨0, _⟩ => show win0_7.index t 0 * 32 + 1 * p.val = p.val; rw [(idx_res7 t).1]; omega
  | ⟨1, _⟩ => show win0_7.index t 1 * 32 + 1 * q.val = q.val; rw [(idx_res7 t).2]; omega

theorem res8_apply (c : Dev nD) (t : Fin cfg0.N) (p : Fin 1) (q : Fin 32) :
    (iblk m c 8 t : S1x32.Idx → EReal) (ix2 p q) = (V m c main_v9 : S1x32.Idx → EReal) (ix2 p q) := by
  unfold iblk
  rw [View.read_apply]
  show V m c main_v9 _ = _
  refine congrArg _ (funext fun a => Fin.ext ?_)
  match a with
  | ⟨0, _⟩ => show win0_8.index t 0 * 1 + 1 * p.val = p.val; rw [(idx_res8 t).1]; omega
  | ⟨1, _⟩ => show win0_8.index t 1 * 32 + 1 * q.val = q.val; rw [(idx_res8 t).2]; omega

theorem res9_apply (c : Dev nD) (t : Fin cfg0.N) (p : Fin 1) (q : Fin 32) :
    (iblk m c 9 t : S1x32.Idx → EReal) (ix2 p q) = (V m c main_v10 : S1x32.Idx → EReal) (ix2 p q) := by
  unfold iblk
  rw [View.read_apply]
  show V m c main_v10 _ = _
  refine congrArg _ (funext fun a => Fin.ext ?_)
  match a with
  | ⟨0, _⟩ => show win0_9.index t 0 * 1 + 1 * p.val = p.val; rw [(idx_res9 t).1]; omega
  | ⟨1, _⟩ => show win0_9.index t 1 * 32 + 1 * q.val = q.val; rw [(idx_res9 t).2]; omega

theorem res10_apply (c : Dev nD) (t : Fin cfg0.N) (p : Fin 1) (q : Fin 1) :
    (iblk m c 10 t : S1x1.Idx → EReal) (ix2 p q) = (V m c main_v11 : S1x1.Idx → EReal) (ix2 p q) := by
  unfold iblk
  rw [View.read_apply]
  show V m c main_v11 _ = _
  refine congrArg _ (funext fun a => Fin.ext ?_)
  match a with
  | ⟨0, _⟩ => show win0_10.index t 0 * 1 + 1 * p.val = p.val; rw [(idx_res10 t).1]; omega
  | ⟨1, _⟩ => show win0_10.index t 1 * 1 + 1 * q.val = q.val; rw [(idx_res10 t).2]; omega

/-! ## What the program put in those arrays before the kernel started -/

/-- The transposed feature matrix: entry (j, n) is W(n, j). -/
theorem v1_apply (c : Dev nD) (j : Fin 40960) (n : Fin 256) :
    (V m c main_v1 : S40960x256.Idx → EReal) (ix2 j n) = m ((c.tc : Thread nD τ).loc main_arg2) (ix2 n j) := by
  have e : (V m c main_v1 : S40960x256.Idx → EReal)
      = (truncf .bf16 (transpose S40960x256 [1, 0] (m ((c.tc : Thread nD τ).loc main_arg2) : FVec Ideal S256x40960 .f32) transposes_S256x40960_S40960x256_1_0) bitsLt_bf16_f32 : FVec Ideal S40960x256 .bf16) := by
    dsimp only [V, hostOps0]; after_results <;> rfl
  rw [e]
  exact transpose_ix2_apply (m ((c.tc : Thread nD τ).loc main_arg2)) transposes_S256x40960_S40960x256_1_0 j n

/-- The feature bias as a one-row matrix. -/
theorem v2_apply (c : Dev nD) (u : Fin 1) (n : Fin 256) :
    (V m c main_v2 : S1x256.Idx → EReal) (ix2 u n) = m ((c.tc : Thread nD τ).loc main_arg3) (ix1 n) := by
  have e : (V m c main_v2 : S1x256.Idx → EReal)
      = shapeCast S1x256 (m ((c.tc : Thread nD τ).loc main_arg3)) shapeCasts_S256_S1x256 := by
    dsimp only [V, hostOps0]; after_results <;> rfl
  rw [e]
  exact shapeCast_a_1a_apply (m ((c.tc : Thread nD τ).loc main_arg3)) shapeCasts_S256_S1x256 u n

/-- Columns 0..255 of the first dense layer's matrix. -/
theorem v4_apply (c : Dev nD) (n : Fin 32) (k : Fin 256) (k' : Fin 512) (hk : k'.val = k.val) :
    (V m c main_v4 : S32x256.Idx → EReal) (ix2 n k) = m ((c.tc : Thread nD τ).loc main_arg4) (ix2 n k') := by
  have e : (V m c main_v4 : S32x256.Idx → EReal)
      = (truncf .bf16 (extractStridedSlice S32x256 ![0, 0] (m ((c.tc : Thread nD τ).loc main_arg4) : FVec Ideal S32x512 .f32) slices_S32x512_S32x256_0_0) bitsLt_bf16_f32 : FVec Ideal S32x256 .bf16) := by
    dsimp only [V, hostOps0]; after_results <;> rfl
  rw [e]
  exact slice2_axis1_apply 0 (m ((c.tc : Thread nD τ).loc main_arg4)) slices_S32x512_S32x256_0_0 n k k' (by rw [hk]; omega)

/-- Columns 256..511 of the first dense layer's matrix. -/
theorem v6_apply (c : Dev nD) (n : Fin 32) (k : Fin 256) (k' : Fin 512) (hk : k'.val = 256 + k.val) :
    (V m c main_v6 : S32x256.Idx → EReal) (ix2 n k) = m ((c.tc : Thread nD τ).loc main_arg4) (ix2 n k') := by
  have e : (V m c main_v6 : S32x256.Idx → EReal)
      = (truncf .bf16 (extractStridedSlice S32x256 ![0, 256] (m ((c.tc : Thread nD τ).loc main_arg4) : FVec Ideal S32x512 .f32) slices_S32x512_S32x256_0_256) bitsLt_bf16_f32 : FVec Ideal S32x256 .bf16) := by
    dsimp only [V, hostOps0]; after_results <;> rfl
  rw [e]
  exact slice2_axis1_apply 256 (m ((c.tc : Thread nD τ).loc main_arg4)) slices_S32x512_S32x256_0_256 n k k' hk

/-- The first dense layer's bias as a one-row matrix. -/
theorem v7_apply (c : Dev nD) (u : Fin 1) (n : Fin 32) :
    (V m c main_v7 : S1x32.Idx → EReal) (ix2 u n) = m ((c.tc : Thread nD τ).loc main_arg5) (ix1 n) := by
  have e : (V m c main_v7 : S1x32.Idx → EReal)
      = shapeCast S1x32 (m ((c.tc : Thread nD τ).loc main_arg5)) shapeCasts_S32_S1x32 := by
    dsimp only [V, hostOps0]; after_results <;> rfl
  rw [e]
  exact shapeCast_a_1a_apply (m ((c.tc : Thread nD τ).loc main_arg5)) shapeCasts_S32_S1x32 u n

/-- The second dense layer's matrix. -/
theorem v8_apply (c : Dev nD) (i : S32x32.Idx) :
    (V m c main_v8 : S32x32.Idx → EReal) i = m ((c.tc : Thread nD τ).loc main_arg6) i := by
  have e : (V m c main_v8 : S32x32.Idx → EReal)
      = (truncf .bf16 (m ((c.tc : Thread nD τ).loc main_arg6) : FVec Ideal S32x32 .f32) bitsLt_bf16_f32 : FVec Ideal S32x32 .bf16) := by
    dsimp only [V, hostOps0]; after_results <;> rfl
  rw [e]; rfl

/-- The second dense layer's bias as a one-row matrix. -/
theorem v9_apply (c : Dev nD) (u : Fin 1) (n : Fin 32) :
    (V m c main_v9 : S1x32.Idx → EReal) (ix2 u n) = m ((c.tc : Thread nD τ).loc main_arg7) (ix1 n) := by
  have e : (V m c main_v9 : S1x32.Idx → EReal)
      = shapeCast S1x32 (m ((c.tc : Thread nD τ).loc main_arg7)) shapeCasts_S32_S1x32 := by
    dsimp only [V, hostOps0]; after_results <;> rfl
  rw [e]
  exact shapeCast_a_1a_apply (m ((c.tc : Thread nD τ).loc main_arg7)) shapeCasts_S32_S1x32 u n

/-- The output layer's row. -/
theorem v10_apply (c : Dev nD) (i : S1x32.Idx) :
    (V m c main_v10 : S1x32.Idx → EReal) i = m ((c.tc : Thread nD τ).loc main_arg8) i := by
  have e : (V m c main_v10 : S1x32.Idx → EReal)
      = (truncf .bf16 (m ((c.tc : Thread nD τ).loc main_arg8) : FVec Ideal S1x32 .f32) bitsLt_bf16_f32 : FVec Ideal S1x32 .bf16) := by
    dsimp only [V, hostOps0]; after_results <;> rfl
  rw [e]; rfl

/-- The output layer's bias as a one-cell matrix. -/
theorem v11_apply (c : Dev nD) (u : Fin 1) (n : Fin 1) :
    (V m c main_v11 : S1x1.Idx → EReal) (ix2 u n) = m ((c.tc : Thread nD τ).loc main_arg9) (ix1 n) := by
  have e : (V m c main_v11 : S1x1.Idx → EReal)
      = shapeCast S1x1 (m ((c.tc : Thread nD τ).loc main_arg9)) shapeCasts_S1_S1x1 := by
    dsimp only [V, hostOps0]; after_results <;> rfl
  rw [e]
  exact shapeCast_a_1a_apply (m ((c.tc : Thread nD τ).loc main_arg9)) shapeCasts_S1_S1x1 u n

end Cert.KernelIdeal.Blocks

end
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.NetAlgebra.lean ====
/-
  The one regrouping the kernel's feature transform needs.

  The kernel forms row r of the feature transform in 20 steps: step s adds the partial sum over the 2048 columns
  2048 s .. 2048 s + 2047. The 20 partial sums, added to zero in step order, are the sum over all 40960 columns: a sum over
  Fin (20 * 2048) cut into consecutive blocks. Only commutativity and associativity of + on the extended reals are used.

  To state a step's partial sum without carrying bound proofs, an array is extended to all pairs of naturals by zero.
-/
import proofs.«102913_j46497315946985_2_alg».proof.Proof.NetSpec
import proofs.«102913_j46497315946985_2_alg».proof.Proof.LibGemmSplit
import Idealize.ShloMosaic.PureOps.Ideal.Laws

noncomputable section

namespace Cert.NetAlgebra

open Idealize.ShloMosaic Idealize.ShloMosaic.ValueIdx

/-- A matrix read at a pair of naturals: the entry when both are in range, zero otherwise. -/
def ext2 {a b : ℕ} (x : (⟨2, ![a, b]⟩ : Shape).Idx → EReal) (r j : ℕ) : EReal :=
  if h : r < a ∧ j < b then x (ix2 ⟨r, h.1⟩ ⟨j, h.2⟩) else 0

theorem ext2_of_lt {a b : ℕ} (x : (⟨2, ![a, b]⟩ : Shape).Idx → EReal) (r j : ℕ) (hr : r < a) (hj : j < b) :
    ext2 x r j = x (ix2 ⟨r, hr⟩ ⟨j, hj⟩) := dif_pos ⟨hr, hj⟩

/-- Step `s` of the accumulation for row `r` of the features and row `h` of the matrix: columns 2048 s .. 2048 s + 2047. -/
def part (x : (⟨2, ![4096, 40960]⟩ : Shape).Idx → EReal) (W : (⟨2, ![256, 40960]⟩ : Shape).Idx → EReal)
    (r h s : ℕ) : EReal :=
  ∑ k : Fin 2048, ext2 x r (2048 * s + k.val) * ext2 W h (2048 * s + k.val)

/-- Zero plus the 20 steps, in order, is the whole contraction over the 40960 columns. -/
theorem steps_eq_sum (x : (⟨2, ![4096, 40960]⟩ : Shape).Idx → EReal) (W : (⟨2, ![256, 40960]⟩ : Shape).Idx → EReal)
    (r : Fin 4096) (h : Fin 256) :
    Ideal.ofBits .f32 0x00000000#32 + ∑ s ∈ Finset.range 20, part x W r.val h.val s
      = ∑ j : Fin 40960, x (ix2 r j) * W (ix2 h j) := by
  rw [Ideal.ofBits_zero_f32, zero_add, Finset.sum_range,
    Cert.LibGemmSplit.sum_blocks (n := 20) (b := 2048) (by norm_num) (fun j : Fin 40960 => x (ix2 r j) * W (ix2 h j))]
  refine Finset.sum_congr rfl fun s _ => Finset.sum_congr rfl fun k _ => ?_
  have hb : 2048 * s.val + k.val < 40960 := Cert.LibGemmSplit.blk_lt (by norm_num) s k
  rw [ext2_of_lt x _ _ r.isLt hb, ext2_of_lt W _ _ h.isLt hb]

end Cert.NetAlgebra

end
-- ==== Proof.KFold.lean ====
/-
  The two accumulators, folded over a batch tile's 20 grid points.

  Fix a batch tile q (grid points 20 q .. 20 q + 19). Each point adds to each accumulator the partial contraction of its
  512 x 2048 feature tile with the 2048 rows of the transposed feature matrix it loads; the first point starts from zero.
  So after point 20 q + j the white accumulator's entry (p, n) is  0 + sum_{s <= j} part(s), where part(s) is the sum over
  the columns 2048 s .. 2048 s + 2047 of x(512 q + p, col) * W(n, col); after the last point (j = 19) that is the whole
  contraction over the 40960 columns (NetAlgebra.steps_eq_sum). The same for the black accumulator.
-/
import proofs.«102913_j46497315946985_2_alg».proof.Proof.Gen.KernelIdeal.Value
import proofs.«102913_j46497315946985_2_alg».proof.Proof.KPieces
import proofs.«102913_j46497315946985_2_alg».proof.Proof.KPayloads
import proofs.«102913_j46497315946985_2_alg».proof.Proof.KBlocks
import proofs.«102913_j46497315946985_2_alg».proof.Proof.NetAlgebra

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx Cert.NetSpec Cert.NetAlgebra
open Cert.KernelIdeal.Pieces Cert.KernelIdeal.Payloads Cert.KernelIdeal.Blocks

variable (m : (ℓ : Loc nD τ sig) → Buf (Elt Ideal) ℓ)

/-- The white features, the black features and the feature matrix of device `c`, as plain functions of an index. -/
abbrev Xw (c : Dev nD) : (⟨2, ![4096, 40960]⟩ : Shape).Idx → EReal := m ((c.tc : Thread nD τ).loc main_arg0)
abbrev Xb (c : Dev nD) : (⟨2, ![4096, 40960]⟩ : Shape).Idx → EReal := m ((c.tc : Thread nD τ).loc main_arg1)
abbrev Wm (c : Dev nD) : (⟨2, ![256, 40960]⟩ : Shape).Idx → EReal := m ((c.tc : Thread nD τ).loc main_arg2)

/-- The matrix rows a point loads: entry (k, n) is W(n, 2048 (t mod 20) + k). -/
theorem wrows_apply (c : Dev nD) (t : Fin cfg0.N)
    (hin : ∀ a, (k0_off1 (grid0.coords t)) a + S2048x256.size a ≤ S40960x256.size a)
    (k : Fin 2048) (n : Fin 256) (j : Fin 40960) (hj : j.val = 2048 * (t.val % 20) + k.val) :
    wslice (grid0.coords t) (iblk m c 2 t) hin (ix2 k n) = Wm m c (ix2 n j) := by
  show (iblk m c 2 t : S40960x256.Idx → EReal)
    ((Rect.unit (s := S40960x256) (k0_off1 (grid0.coords t)) S2048x256.size hin).idx (ix2 k n)) = _
  have e : (Rect.unit (s := S40960x256) (k0_off1 (grid0.coords t)) S2048x256.size hin).idx (ix2 k n) = ix2 j n :=
    funext fun a => Fin.ext (by
      match a with
      | ⟨0, _⟩ => show k0_off1 (grid0.coords t) 0 + 1 * k.val = j.val; rw [(off_rows t).1, hj]; omega
      | ⟨1, _⟩ => show k0_off1 (grid0.coords t) 1 + 1 * n.val = n.val; rw [(off_rows t).2]; omega)
  rw [e, res2_apply m c t j n, v1_apply m c j n]

/-- One accumulation step of the white side at point `t`, over what the accumulator held: entry (p, n) gains the partial
    contraction of row 512 (t / 20) + p of the white features with row n of the feature matrix over the columns of
    step t mod 20. -/
theorem step_white (c : Dev nD) (t : Fin cfg0.N)
    (hin : ∀ a, (k0_off1 (grid0.coords t)) a + S2048x256.size a ≤ S40960x256.size a)
    (acc : Vec Ideal S512x256 .f32) (p : Fin 512) (n : Fin 256) :
    k0_pay4 (wslice (grid0.coords t) (iblk m c 2 t) hin) (iblk m c 0 t) acc (ix2 p n)
      = acc (ix2 p n) + part (Xw m c) (Wm m c) (512 * (t.val / 20) + p.val) n.val (t.val % 20) := by
  rw [acc1_apply]
  refine congrArg (acc (ix2 p n) + ·) ?_
  unfold part
  refine Finset.sum_congr rfl fun k _ => ?_
  have ht : t.val < 160 := lt_of_lt_of_eq t.isLt N_0
  have hr : 512 * (t.val / 20) + p.val < 4096 := by have := p.isLt; omega
  have hj : 2048 * (t.val % 20) + k.val < 40960 := by have := k.isLt; omega
  rw [ext2_of_lt _ _ _ hr hj, ext2_of_lt _ _ _ n.isLt hj, wrows_apply m c t hin k n ⟨_, hj⟩ rfl,
    white_apply m c t p k ⟨_, hr⟩ ⟨_, hj⟩ rfl rfl]

/-- What point `n` leaves in the white accumulator over `acc`: at the first point of a run (n mod 20 = 0) zero plus the
    step, elsewhere `acc` plus the step. -/
theorem sc_white (c : Dev nD) (n : ℕ) (hb : n < cfg0.N) (acc : Vec Ideal S512x256 .f32) (p : Fin 512) (k : Fin 256) :
    Cert.KernelIdeal.Value.scAt0_0 m c n hb acc (ix2 p k)
      = (if n % 20 = 0 then Ideal.ofBits .f32 0x00000000#32 else acc (ix2 p k))
        + part (Xw m c) (Wm m c) (512 * (n / 20) + p.val) k.val (n % 20) := by
  have hN : n < 160 := lt_of_lt_of_eq hb N_0
  unfold Cert.KernelIdeal.Value.scAt0_0
  by_cases h0 : n % 20 = 0
  · have h1 : ¬ n % 20 = 19 := by omega
    rw [dif_pos h0, dif_neg h1, if_pos h0]
    refine (congrFun (piece_A_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (Cert.KernelIdeal.Gen.k0_off1_inb (grid0.coords (⟨n, hb⟩ : Fin cfg0.N)))) (ix2 p k)).trans ?_
    refine (step_white m c (⟨n, hb⟩ : Fin cfg0.N) _ _ p k).trans ?_
    rw [zero1_apply]
  · rw [dif_neg h0, if_neg h0]
    by_cases h1 : n % 20 = 19
    · rw [dif_pos h1]
      refine (congrFun (piece_C_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2 (Cert.KernelIdeal.Gen.k0_off1_inb (grid0.coords (⟨n, hb⟩ : Fin cfg0.N)))) (ix2 p k)).trans ?_
      exact step_white m c (⟨n, hb⟩ : Fin cfg0.N) _ acc p k
    · rw [dif_neg h1]
      refine (congrFun (piece_B_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2 (Cert.KernelIdeal.Gen.k0_off1_inb (grid0.coords (⟨n, hb⟩ : Fin cfg0.N)))) (ix2 p k)).trans ?_
      exact step_white m c (⟨n, hb⟩ : Fin cfg0.N) _ acc p k

/-- The white accumulator after point 20 q + j (j ≤ 19) of batch tile q: zero plus the steps 0 .. j, in order. -/
theorem fold_white (c : Dev nD) (q j : ℕ) (hj : j ≤ 19) (h : 20 * q + j < cfg0.N) (p : Fin 512) (k : Fin 256) :
    Pipeline.accAt (fun n h => Cert.KernelIdeal.Value.scAt0_0 m c n h (VS0_0.read (Elt Ideal) VS0_0.junk))
        (Cert.KernelIdeal.Value.scAt0_0 m c) (20 * q) j h (ix2 p k)
      = Ideal.ofBits .f32 0x00000000#32 + ∑ s ∈ Finset.range (j + 1), part (Xw m c) (Wm m c) (512 * q + p.val) k.val s := by
  have key := Pipeline.accAt_add_apply (N := cfg0.N) (ι := S512x256.Idx) (β := EReal)
    (fun n h => Cert.KernelIdeal.Value.scAt0_0 m c n h (VS0_0.read (Elt Ideal) VS0_0.junk))
    (Cert.KernelIdeal.Value.scAt0_0 m c)
    (fun _ => Ideal.ofBits .f32 0x00000000#32)
    (fun n i => part (Xw m c) (Wm m c) (512 * (n / 20) + (i 0).val) (i 1).val (n % 20))
    (20 * q) 19
    (fun hb i => by
      obtain ⟨p', k', rfl⟩ : ∃ (p' : Fin 512) (k' : Fin 256), i = ix2 p' k' := ⟨i 0, i 1, eq_ix2 i⟩
      rw [sc_white m c (20 * q) hb _ p' k', if_pos (Nat.mul_mod_right 20 q)])
    (fun n hb acc i hlo hhi => by
      obtain ⟨p', k', rfl⟩ : ∃ (p' : Fin 512) (k' : Fin 256), i = ix2 p' k' := ⟨i 0, i 1, eq_ix2 i⟩
      rw [sc_white m c n hb acc p' k', if_neg (by omega)])
    j hj h (ix2 p k)
  rw [key]
  refine congrArg (Ideal.ofBits .f32 0x00000000#32 + ·) (Finset.sum_congr rfl fun s hs => ?_)
  have hs' : s < j + 1 := Finset.mem_range.mp hs
  have e1 : (20 * q + s) / 20 = q := by omega
  have e2 : (20 * q + s) % 20 = s := by omega
  show part (Xw m c) (Wm m c) (512 * ((20 * q + s) / 20) + p.val) k.val ((20 * q + s) % 20) = _
  rw [e1, e2]

/-- The finished white accumulator (after a point with t mod 20 = 19), entry (p, k): the whole contraction over the 40960
    columns of feature row r = 512 (t / 20) + p with matrix row k. -/
theorem done_white (c : Dev nD) (t : Fin cfg0.N) (h19 : t.val % 20 = 19) (p : Fin 512) (k : Fin 256) (r : Fin 4096)
    (hr : r.val = 512 * (t.val / 20) + p.val) :
    (outsAt0 m c t.val t.isLt).2.1 (ix2 p k) = ∑ j : Fin 40960, Xw m c (ix2 r j) * Wm m c (ix2 k j) := by
  rw [Cert.KernelIdeal.Value.soutsAt0_0_eq m c t, fold_white m c (t.val / 20) (t.val % 20) (by omega) _ p k, h19,
    ← hr]
  exact steps_eq_sum (Xw m c) (Wm m c) r k

/-- One accumulation step of the black side at point `t`, over what the accumulator held: entry (p, n) gains the partial
    contraction of row 512 (t / 20) + p of the black features with row n of the feature matrix over the columns of
    step t mod 20. -/
theorem step_black (c : Dev nD) (t : Fin cfg0.N)
    (hin : ∀ a, (k0_off1 (grid0.coords t)) a + S2048x256.size a ≤ S40960x256.size a)
    (acc : Vec Ideal S512x256 .f32) (p : Fin 512) (n : Fin 256) :
    k0_pay5 (wslice (grid0.coords t) (iblk m c 2 t) hin) (iblk m c 1 t) acc (ix2 p n)
      = acc (ix2 p n) + part (Xb m c) (Wm m c) (512 * (t.val / 20) + p.val) n.val (t.val % 20) := by
  rw [acc2_apply]
  refine congrArg (acc (ix2 p n) + ·) ?_
  unfold part
  refine Finset.sum_congr rfl fun k _ => ?_
  have ht : t.val < 160 := lt_of_lt_of_eq t.isLt N_0
  have hr : 512 * (t.val / 20) + p.val < 4096 := by have := p.isLt; omega
  have hj : 2048 * (t.val % 20) + k.val < 40960 := by have := k.isLt; omega
  rw [ext2_of_lt _ _ _ hr hj, ext2_of_lt _ _ _ n.isLt hj, wrows_apply m c t hin k n ⟨_, hj⟩ rfl,
    black_apply m c t p k ⟨_, hr⟩ ⟨_, hj⟩ rfl rfl]

/-- What point `n` leaves in the black accumulator over `acc`: at the first point of a run (n mod 20 = 0) zero plus the
    step, elsewhere `acc` plus the step. -/
theorem sc_black (c : Dev nD) (n : ℕ) (hb : n < cfg0.N) (acc : Vec Ideal S512x256 .f32) (p : Fin 512) (k : Fin 256) :
    Cert.KernelIdeal.Value.scAt0_1 m c n hb acc (ix2 p k)
      = (if n % 20 = 0 then Ideal.ofBits .f32 0x00000000#32 else acc (ix2 p k))
        + part (Xb m c) (Wm m c) (512 * (n / 20) + p.val) k.val (n % 20) := by
  have hN : n < 160 := lt_of_lt_of_eq hb N_0
  unfold Cert.KernelIdeal.Value.scAt0_1
  by_cases h0 : n % 20 = 0
  · have h1 : ¬ n % 20 = 19 := by omega
    rw [dif_pos h0, dif_neg h1, if_pos h0]
    refine (congrFun (piece_A_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (Cert.KernelIdeal.Gen.k0_off1_inb (grid0.coords (⟨n, hb⟩ : Fin cfg0.N)))) (ix2 p k)).trans ?_
    refine (step_black m c (⟨n, hb⟩ : Fin cfg0.N) _ _ p k).trans ?_
    rw [zero2_apply]
  · rw [dif_neg h0, if_neg h0]
    by_cases h1 : n % 20 = 19
    · rw [dif_pos h1]
      refine (congrFun (piece_C_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (Cert.KernelIdeal.Gen.k0_off1_inb (grid0.coords (⟨n, hb⟩ : Fin cfg0.N)))) (ix2 p k)).trans ?_
      exact step_black m c (⟨n, hb⟩ : Fin cfg0.N) _ acc p k
    · rw [dif_neg h1]
      refine (congrFun (piece_B_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc (Cert.KernelIdeal.Gen.k0_off1_inb (grid0.coords (⟨n, hb⟩ : Fin cfg0.N)))) (ix2 p k)).trans ?_
      exact step_black m c (⟨n, hb⟩ : Fin cfg0.N) _ acc p k

/-- The black accumulator after point 20 q + j (j ≤ 19) of batch tile q: zero plus the steps 0 .. j, in order. -/
theorem fold_black (c : Dev nD) (q j : ℕ) (hj : j ≤ 19) (h : 20 * q + j < cfg0.N) (p : Fin 512) (k : Fin 256) :
    Pipeline.accAt (fun n h => Cert.KernelIdeal.Value.scAt0_1 m c n h (VS0_1.read (Elt Ideal) VS0_1.junk))
        (Cert.KernelIdeal.Value.scAt0_1 m c) (20 * q) j h (ix2 p k)
      = Ideal.ofBits .f32 0x00000000#32 + ∑ s ∈ Finset.range (j + 1), part (Xb m c) (Wm m c) (512 * q + p.val) k.val s := by
  have key := Pipeline.accAt_add_apply (N := cfg0.N) (ι := S512x256.Idx) (β := EReal)
    (fun n h => Cert.KernelIdeal.Value.scAt0_1 m c n h (VS0_1.read (Elt Ideal) VS0_1.junk))
    (Cert.KernelIdeal.Value.scAt0_1 m c)
    (fun _ => Ideal.ofBits .f32 0x00000000#32)
    (fun n i => part (Xb m c) (Wm m c) (512 * (n / 20) + (i 0).val) (i 1).val (n % 20))
    (20 * q) 19
    (fun hb i => by
      obtain ⟨p', k', rfl⟩ : ∃ (p' : Fin 512) (k' : Fin 256), i = ix2 p' k' := ⟨i 0, i 1, eq_ix2 i⟩
      rw [sc_black m c (20 * q) hb _ p' k', if_pos (Nat.mul_mod_right 20 q)])
    (fun n hb acc i hlo hhi => by
      obtain ⟨p', k', rfl⟩ : ∃ (p' : Fin 512) (k' : Fin 256), i = ix2 p' k' := ⟨i 0, i 1, eq_ix2 i⟩
      rw [sc_black m c n hb acc p' k', if_neg (by omega)])
    j hj h (ix2 p k)
  rw [key]
  refine congrArg (Ideal.ofBits .f32 0x00000000#32 + ·) (Finset.sum_congr rfl fun s hs => ?_)
  have hs' : s < j + 1 := Finset.mem_range.mp hs
  have e1 : (20 * q + s) / 20 = q := by omega
  have e2 : (20 * q + s) % 20 = s := by omega
  show part (Xb m c) (Wm m c) (512 * ((20 * q + s) / 20) + p.val) k.val ((20 * q + s) % 20) = _
  rw [e1, e2]

/-- The finished black accumulator (after a point with t mod 20 = 19), entry (p, k): the whole contraction over the 40960
    columns of feature row r = 512 (t / 20) + p with matrix row k. -/
theorem done_black (c : Dev nD) (t : Fin cfg0.N) (h19 : t.val % 20 = 19) (p : Fin 512) (k : Fin 256) (r : Fin 4096)
    (hr : r.val = 512 * (t.val / 20) + p.val) :
    (outsAt0 m c t.val t.isLt).2.2 (ix2 p k) = ∑ j : Fin 40960, Xb m c (ix2 r j) * Wm m c (ix2 k j) := by
  rw [Cert.KernelIdeal.Value.soutsAt0_1_eq m c t, fold_black m c (t.val / 20) (t.val % 20) (by omega) _ p k, h19,
    ← hr]
  exact steps_eq_sum (Xb m c) (Wm m c) r k

end Cert.KernelIdeal.Fold

end
-- ==== Proof.KFinal.lean ====
/-
  The kernel's result array is the network of the ten argument arrays.

  At the last grid point of batch tile q (t = 20 q + 19) the body computes, from the two finished accumulators, the three
  dense layers of every one of the tile's 512 rows and stores them as the tile's 512 x 1 output block. The accumulators
  are by then the whole feature contractions (Fold.done_white / done_black), the bias rows and layer matrices are the
  program's arguments (Blocks), so entry p of the block is NetSpec.net at row 512 q + p. Only these eight points write the
  result array back, each its own 512 rows, and together they cover rows 0 .. 4095.
-/
import proofs.«102913_j46497315946985_2_alg».proof.Proof.KFold

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx Cert.NetSpec Cert.NetAlgebra
open Cert.KernelIdeal.Pieces Cert.KernelIdeal.Payloads Cert.KernelIdeal.Blocks Cert.KernelIdeal.Fold
open Idealize.ShloMosaic.Pipeline (Dat)

variable (m : (ℓ : Loc nD τ sig) → Buf (Elt Ideal) ℓ) (ρ : Dev nD → PrngReg)

/-- The network of device `c`'s ten argument arrays, as contents of the result array. -/
abbrev result (c : Dev nD) : Buf (Elt Ideal) ((c.tc : Thread nD τ).loc main_v12) :=
  net (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-- At the last point of a batch tile the output block is the dense layers of the two accumulators as that same point
    leaves them. -/
theorem out_last (c : Dev nD) (t : Fin cfg0.N) (h0 : ¬t.val % 20 = 0) (h1 : t.val % 20 = 19) :
    (outsAt0 m c t.val t.isLt).1
      = k0_pay6 (k0_pay7 (outsAt0 m c t.val t.isLt).2.1 (iblk m c 3 t) (outsAt0 m c t.val t.isLt).2.2 (iblk m c 3 t)
          (iblk m c 4 t) (iblk m c 5 t) (iblk m c 6 t)) (iblk m c 7 t) (iblk m c 8 t) (iblk m c 9 t) (iblk m c 10 t) := by
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2 (Cert.KernelIdeal.Gen.k0_off1_inb (grid0.coords t)),
    piece_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2 (Cert.KernelIdeal.Gen.k0_off1_inb (grid0.coords t)),
    piece_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.1 (outsAt0 m c (t.val - 1) (Nat.lt_of_le_of_lt (Nat.sub_le _ _) t.isLt)).2.2 (Cert.KernelIdeal.Gen.k0_off1_inb (grid0.coords t))]

/-- Entry p of the block stored at the last point of batch tile t / 20 is the network at row 512 (t / 20) + p. -/
theorem last_apply (c : Dev nD) (t : Fin cfg0.N) (h19 : t.val % 20 = 19) (p : Fin 512) (q : Fin 1) (r : Fin 4096)
    (hr : r.val = 512 * (t.val / 20) + p.val) :
    (outsAt0 m c t.val t.isLt).1 (ix2 p q) = result m c (ix2 r q) := by
  have h0 : ¬t.val % 20 = 0 := by omega
  have ew : ∀ k : Fin 256, (outsAt0 m c t.val t.isLt).2.1 (ix2 p k)
      = ∑ j : Fin 40960, Xw m c (ix2 r j) * Wm m c (ix2 k j) := fun k => done_white m c t h19 p k r hr
  have eb : ∀ k : Fin 256, (outsAt0 m c t.val t.isLt).2.2 (ix2 p k)
      = ∑ j : Fin 40960, Xb m c (ix2 r j) * Wm m c (ix2 k j) := fun k => done_black m c t h19 p k r hr
  have e3 : ∀ k : Fin 256, (iblk m c 3 t : S1x256.Idx → EReal) (ix2 (0 : Fin 1) k)
      = m ((c.tc : Thread nD τ).loc main_arg3) (ix1 k) := fun k => (res3_apply m c t 0 k).trans (v2_apply m c 0 k)
  have e4 : ∀ (n : Fin 32) (k : Fin 256), (iblk m c 4 t : S32x256.Idx → EReal) (ix2 n k)
      = m ((c.tc : Thread nD τ).loc main_arg4) (ix2 n (lo k)) :=
    fun n k => (res4_apply m c t n k).trans (v4_apply m c n k (lo k) rfl)
  have e5 : ∀ (n : Fin 32) (k : Fin 256), (iblk m c 5 t : S32x256.Idx → EReal) (ix2 n k)
      = m ((c.tc : Thread nD τ).loc main_arg4) (ix2 n (hi k)) :=
    fun n k => (res5_apply m c t n k).trans (v6_apply m c n k (hi k) rfl)
  have e6 : ∀ n : Fin 32, (iblk m c 6 t : S1x32.Idx → EReal) (ix2 (0 : Fin 1) n)
      = m ((c.tc : Thread nD τ).loc main_arg5) (ix1 n) := fun n => (res6_apply m c t 0 n).trans (v7_apply m c 0 n)
  have e7 : ∀ (n k : Fin 32), (iblk m c 7 t : S32x32.Idx → EReal) (ix2 n k)
      = m ((c.tc : Thread nD τ).loc main_arg6) (ix2 n k) := fun n k => (res7_apply m c t n k).trans (v8_apply m c _)
  have e8 : ∀ n : Fin 32, (iblk m c 8 t : S1x32.Idx → EReal) (ix2 (0 : Fin 1) n)
      = m ((c.tc : Thread nD τ).loc main_arg7) (ix1 n) := fun n => (res8_apply m c t 0 n).trans (v9_apply m c 0 n)
  have e9 : ∀ k : Fin 32, (iblk m c 9 t : S1x32.Idx → EReal) (ix2 (0 : Fin 1) k)
      = m ((c.tc : Thread nD τ).loc main_arg8) (ix2 (0 : Fin 1) k) := fun k => (res9_apply m c t 0 k).trans (v10_apply m c _)
  have e10 : (iblk m c 10 t : S1x1.Idx → EReal) (ix2 (0 : Fin 1) (0 : Fin 1))
      = m ((c.tc : Thread nD τ).loc main_arg9) (ix1 (0 : Fin 1)) := (res10_apply m c t 0 0).trans (v11_apply m c 0 0)
  rw [out_last m c t h0 h19, out_apply]
  simp only [l1_apply, ew, eb, e3, e4, e5, e6, e7, e8, e9, e10]
  rfl

/-- What a flushing point writes back is its block of the network's result. -/
theorem flushed_eq (c : Dev nD) (t : Fin cfg0.N) (hf : (cfg0.win 11).flush t = true) :
    (dats m 0 c).flushed 11 t = ((cfg0.win 11).blk t).view.read (Elt Ideal) (result m c) := by
  have h19 : t.val % 20 = 19 := (flush0_11 t).mp hf
  have ht : t.val < 160 := lt_of_lt_of_eq t.isLt N_0
  rw [Cert.KernelIdeal.Value.flushed11]
  refine funext fun (y : S512x1.Idx) => ?_
  obtain ⟨p, q, rfl⟩ : ∃ (p : Fin 512) (q : Fin 1), y = ix2 p q := ⟨y 0, y 1, eq_ix2 y⟩
  have hr : 512 * (t.val / 20) + p.val < 4096 := by have := p.isLt; omega
  show (outsAt0 m c t.val t.isLt).1 (ix2 p q) = result m c (((cfg0.win 11).blk t).view.emb (ix2 p q))
  have e : ((cfg0.win 11).blk t).view.emb (ix2 p q) = ix2 (⟨512 * (t.val / 20) + p.val, hr⟩ : Fin 4096) q :=
    funext fun a => Fin.ext (by
      match a with
      | ⟨0, _⟩ => show win0_11.index t 0 * 512 + 1 * p.val = 512 * (t.val / 20) + p.val; rw [(idx_out t).1]; omega
      | ⟨1, _⟩ => show win0_11.index t 1 * 1 + 1 * q.val = q.val; rw [(idx_out t).2]; omega)
  rw [e]
  exact last_apply m c t h19 p q ⟨_, hr⟩ rfl

/-- A row of the result array lies in point `t`'s block iff each coordinate is in the block's range. -/
theorem mem_blk (t : Fin cfg0.N) (i : S4096x1.Idx) :
    i ∈ ((cfg0.win 11).blk t).view.set
      ↔ ∀ a : Fin 2, win0_11.index t a * S512x1.size a ≤ (i a).val ∧ (i a).val < win0_11.index t a * S512x1.size a + S512x1.size a := by
  show i ∈ ((View.whole main_v12).slice (win0_11.rect t)).set ↔ _
  rw [View.set_slice_whole, Rect.mem_set_unit]
  exact Iff.rfl

/-- Every row is written back by the last point of its batch tile. -/
theorem cover (i : S4096x1.Idx) :
    ∃ t : Fin cfg0.N, (cfg0.win 11).flush t = true ∧ i ∈ ((cfg0.win 11).blk t).view.set := by
  have hi0 : (i 0).val < 4096 := (i 0).isLt
  have hi1 : (i 1).val < 1 := (i 1).isLt
  have hN : cfg0.N = 160 := N_0
  let t : Fin cfg0.N := ⟨20 * ((i 0).val / 512) + 19, by rw [hN]; omega⟩
  have hv : t.val = 20 * ((i 0).val / 512) + 19 := rfl
  refine ⟨t, (flush0_11 t).mpr (by rw [hv]; omega), ?_⟩
  rw [mem_blk]
  intro a
  match a with
  | ⟨0, _⟩ =>
    show win0_11.index t 0 * 512 ≤ (i 0).val ∧ (i 0).val < win0_11.index t 0 * 512 + 512
    rw [(idx_out t).1, hv]; omega
  | ⟨1, _⟩ =>
    show win0_11.index t 1 * 1 ≤ (i 1).val ∧ (i 1).val < win0_11.index t 1 * 1 + 1
    rw [(idx_out t).2]; omega

/-- So the result array ends holding the network of the argument arrays. -/
theorem final (c : Dev nD) : (dats m 0 c).arrAt 11 cfg0.N = result m c :=
  (dats m 0 c).arrAt_eq_of_cover 11 (result m c) (flushed_eq m c) cover

/-- The kernel's run, read: the result array at the network of the arguments, the arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (final m c), (h c).2⟩)
    (Cert.KernelIdeal.Value.run_blocks (F := Ideal) m ρ)

end Cert.KernelIdeal.Final

end
-- ==== Proof.RefNet.lean ====
/-
  The reference network is the specification function.

  The reference computes, for each of 4096 positions, two feature rows' transforms (a 40960-term contraction with a shared
  256 x 40960 matrix, plus a bias, clipped to [0, 1]), lays the two 256-entry results side by side, and passes the 512
  numbers through three dense layers, the first two clipped. Read one element at a time over the extended reals:
    * each side's element (r, h) is clip (sum_j x_{r j} * W_{h j} + bias_h);
    * column c < 256 of the joined row is the white side's entry c, column 256 + c the black side's entry c;
    * the first layer's 512-term contraction is therefore the sum over the white half plus the sum over the black half
      (a sum over 2 * 256 consecutive terms is the sum of its two blocks);
    * the second and third layers are 32-term contractions of the previous layer's row.
  Every step is a reading of an index or a regrouping of a finite sum; no finiteness of any value is used.
-/
import proofs.«102913_j46497315946985_2_alg».proof.Proof.Gen.ReferenceIdeal.Read
import proofs.«102913_j46497315946985_2_alg».proof.Proof.NetSpec
import proofs.«102913_j46497315946985_2_alg».proof.Proof.LibGemmSplit

noncomputable section

namespace Cert.ReferenceIdeal.RefNet

open Cert.ReferenceIdeal Cert.ReferenceIdeal.Gen Cert.ReferenceIdeal.Read Idealize.ShloMosaic Idealize.ShloMosaic.ValueIdx
open scoped BigOperators

/-! ## The feature stage: one side's clipped transform -/

/-- The left operand of the feature contraction at output (r, h), term k: row r, column k. -/
theorem lidx_v1_eq (r : Fin 4096) (h : Fin 256) (k : Fin 40960) :
    lidx_main_v1 (ix2 r h) k = ix2 r k := by
  funext a; match a with | ⟨0, _⟩ => rfl | ⟨1, _⟩ => rfl

/-- The right operand (the transposed weight matrix) at output (r, h), term k: row h, column k of the matrix. -/
theorem ridx_v1_eq (r : Fin 4096) (h : Fin 256) (k : Fin 40960) :
    idx_main_v0 (ridx_main_v1 (ix2 r h) k) = ix2 h k := by
  funext a; match a with | ⟨0, _⟩ => rfl | ⟨1, _⟩ => rfl

/-- The broadcast bias at (r, h) is entry h. -/
theorem bias_v3_eq (r : Fin 4096) (h : Fin 256) : idx_main_v2 (idx_main_v3 (ix2 r h)) = ix1 h := by
  funext a; match a with | ⟨0, _⟩ => rfl

/-- The white side: clip (x0 row r . W row h + bias h). -/
theorem side_white (x0 : (⟨S4096x40960, .f32⟩ : BufTy).Contents (Elt Ideal)) (x2 : (⟨S256x40960, .f32⟩ : BufTy).Contents (Elt Ideal))
    (x3 : (⟨S256, .f32⟩ : BufTy).Contents (Elt Ideal)) (r : Fin 4096) (h : Fin 256) :
    val_main_v5 (F := Ideal) x0 x2 x3 (ix2 r h) = Cert.NetSpec.side x0 x2 x3 r h := by
  rw [val_main_v5_apply, val_main_call0_v4_apply, val_main_call0_v3_apply, val_main_cst_0_apply,
    val_main_call0_v2_apply, val_main_call0_v1_apply, val_main_call0_v0_apply, val_main_cst_apply,
    val_main_v4_apply, val_main_v1_apply, val_main_v3_apply, val_main_v2_apply, bias_v3_eq]
  unfold Cert.NetSpec.side Cert.NetSpec.clip
  rw [Ideal.minimumf_def, Ideal.maximumf_def, Ideal.addf_def, Ideal.ofBits_def, Ideal.ofBits_def]
  have hs : (∑ k : Fin 40960, x0 (lidx_main_v1 (ix2 r h) k) * val_main_v0 (F := Ideal) x2 (ridx_main_v1 (ix2 r h) k))
      = ∑ j : Fin 40960, x0 (ix2 r j) * x2 (ix2 h j) :=
    Finset.sum_congr rfl fun k _ => by rw [val_main_v0_apply, lidx_v1_eq, ridx_v1_eq]
  rw [hs]

theorem lidx_v7_eq (r : Fin 4096) (h : Fin 256) (k : Fin 40960) :
    lidx_main_v7 (ix2 r h) k = ix2 r k := by
  funext a; match a with | ⟨0, _⟩ => rfl | ⟨1, _⟩ => rfl

theorem ridx_v7_eq (r : Fin 4096) (h : Fin 256) (k : Fin 40960) :
    idx_main_v6 (ridx_main_v7 (ix2 r h) k) = ix2 h k := by
  funext a; match a with | ⟨0, _⟩ => rfl | ⟨1, _⟩ => rfl

theorem bias_v9_eq (r : Fin 4096) (h : Fin 256) : idx_main_v8 (idx_main_v9 (ix2 r h)) = ix1 h := by
  funext a; match a with | ⟨0, _⟩ => rfl

/-- The black side: the same transform of x1. -/
theorem side_black (x1 : (⟨S4096x40960, .f32⟩ : BufTy).Contents (Elt Ideal)) (x2 : (⟨S256x40960, .f32⟩ : BufTy).Contents (Elt Ideal))
    (x3 : (⟨S256, .f32⟩ : BufTy).Contents (Elt Ideal)) (r : Fin 4096) (h : Fin 256) :
    val_main_v11 (F := Ideal) x1 x2 x3 (ix2 r h) = Cert.NetSpec.side x1 x2 x3 r h := by
  rw [val_main_v11_apply, val_main_call1_v4_apply, val_main_call1_v3_apply, val_main_cst_2_apply,
    val_main_call1_v2_apply, val_main_call1_v1_apply, val_main_call1_v0_apply, val_main_cst_1_apply,
    val_main_v10_apply, val_main_v7_apply, val_main_v9_apply, val_main_v8_apply, bias_v9_eq]
  unfold Cert.NetSpec.side Cert.NetSpec.clip
  rw [Ideal.minimumf_def, Ideal.maximumf_def, Ideal.addf_def, Ideal.ofBits_def, Ideal.ofBits_def]
  have hs : (∑ k : Fin 40960, x1 (lidx_main_v7 (ix2 r h) k) * val_main_v6 (F := Ideal) x2 (ridx_main_v7 (ix2 r h) k))
      = ∑ j : Fin 40960, x1 (ix2 r j) * x2 (ix2 h j) :=
    Finset.sum_congr rfl fun k _ => by rw [val_main_v6_apply, lidx_v7_eq, ridx_v7_eq]
  rw [hs]

/-! ## The two sides laid side by side -/

/-- Columns 0..255 of the joined row are the white side. -/
theorem cat_lo (x0 x1 : (⟨S4096x40960, .f32⟩ : BufTy).Contents (Elt Ideal)) (x2 : (⟨S256x40960, .f32⟩ : BufTy).Contents (Elt Ideal)) (x3 : (⟨S256, .f32⟩ : BufTy).Contents (Elt Ideal)) (r : Fin 4096) (c : Fin 256) (j : S4096x512.Idx)
    (h0 : (j 0).val = r.val) (h1 : (j 1).val = c.val) :
    val_main_v12 (F := Ideal) x0 x1 x2 x3 j = Cert.NetSpec.side x0 x2 x3 r c := by
  rw [← side_white]
  unfold val_main_v12
  exact concatenate_pair_apply_left (t := S4096x512) (s₁ := S4096x256) (s₂ := S4096x256) 1 _ _ _ j rfl (ix2 r c)
    (fun b => match b with | ⟨0, _⟩ => h0.symm | ⟨1, _⟩ => h1.symm)

/-- Columns 256..511 of the joined row are the black side. -/
theorem cat_hi (x0 x1 : (⟨S4096x40960, .f32⟩ : BufTy).Contents (Elt Ideal)) (x2 : (⟨S256x40960, .f32⟩ : BufTy).Contents (Elt Ideal)) (x3 : (⟨S256, .f32⟩ : BufTy).Contents (Elt Ideal)) (r : Fin 4096) (c : Fin 256) (j : S4096x512.Idx)
    (h0 : (j 0).val = r.val) (h1 : (j 1).val = 256 + c.val) :
    val_main_v12 (F := Ideal) x0 x1 x2 x3 j = Cert.NetSpec.side x1 x2 x3 r c := by
  rw [← side_black]
  unfold val_main_v12
  exact concatenate_pair_apply_right (t := S4096x512) (s₁ := S4096x256) (s₂ := S4096x256) 1 _ _ _ j rfl rfl (ix2 r c)
    (fun b => match b with
      | ⟨0, _⟩ => fun _ => h0.symm
      | ⟨1, _⟩ => fun hb => absurd rfl hb)
    (by show c.val + 256 = (j 1).val; omega)

/-! ## Layer 1: the 512-term contraction cut into its white and black halves -/

/-- Row n of the first layer's matrix at column k', read through the transpose. -/
theorem w1_idx (r : Fin 4096) (n : Fin 32) (k k' : Fin 512) (hk : k.val = k'.val) :
    idx_main_v13 (ridx_main_v14 (ix2 r n) k) = ix2 n k' := by
  funext a; match a with | ⟨0, _⟩ => exact Fin.ext rfl | ⟨1, _⟩ => exact Fin.ext hk

/-- The first layer's bias at (r, n) is entry n. -/
theorem bias_v16_eq (r : Fin 4096) (n : Fin 32) : idx_main_v15 (idx_main_v16 (ix2 r n)) = ix1 n := by
  funext a; match a with | ⟨0, _⟩ => rfl

/-- The contraction over the 512 joined columns is the white half's sum plus the black half's. -/
theorem v14_split (x0 x1 : (⟨S4096x40960, .f32⟩ : BufTy).Contents (Elt Ideal)) (x2 : (⟨S256x40960, .f32⟩ : BufTy).Contents (Elt Ideal)) (x3 : (⟨S256, .f32⟩ : BufTy).Contents (Elt Ideal)) (x4 : (⟨S32x512, .f32⟩ : BufTy).Contents (Elt Ideal)) (r : Fin 4096) (n : Fin 32) :
    val_main_v14 (F := Ideal) x0 x1 x2 x3 x4 (ix2 r n)
      = (∑ k : Fin 256, Cert.NetSpec.side x0 x2 x3 r k * x4 (ix2 n (Cert.NetSpec.lo k)))
        + (∑ k : Fin 256, Cert.NetSpec.side x1 x2 x3 r k * x4 (ix2 n (Cert.NetSpec.hi k))) := by
  rw [val_main_v14_apply, Cert.LibGemmSplit.sum_blocks (n := 2) (b := 256) (by norm_num), Fin.sum_univ_two]
  have hlo : ∀ k : Fin 256, (val_main_v12 (F := Ideal) x0 x1 x2 x3) (lidx_main_v14 (ix2 r n) ⟨256 * (0 : Fin 2).val + k.val, Cert.LibGemmSplit.blk_lt (by norm_num) 0 k⟩)
        * (val_main_v13 (F := Ideal) x4) (ridx_main_v14 (ix2 r n) ⟨256 * (0 : Fin 2).val + k.val, Cert.LibGemmSplit.blk_lt (by norm_num) 0 k⟩)
      = Cert.NetSpec.side x0 x2 x3 r k * x4 (ix2 n (Cert.NetSpec.lo k)) := fun k => by
    rw [cat_lo x0 x1 x2 x3 r k _ rfl (by show 256 * 0 + k.val = k.val; omega), val_main_v13_apply,
      w1_idx r n _ (Cert.NetSpec.lo k) (by show 256 * 0 + k.val = k.val; omega)]
  have hhi : ∀ k : Fin 256, (val_main_v12 (F := Ideal) x0 x1 x2 x3) (lidx_main_v14 (ix2 r n) ⟨256 * (1 : Fin 2).val + k.val, Cert.LibGemmSplit.blk_lt (by norm_num) 1 k⟩)
        * (val_main_v13 (F := Ideal) x4) (ridx_main_v14 (ix2 r n) ⟨256 * (1 : Fin 2).val + k.val, Cert.LibGemmSplit.blk_lt (by norm_num) 1 k⟩)
      = Cert.NetSpec.side x1 x2 x3 r k * x4 (ix2 n (Cert.NetSpec.hi k)) := fun k => by
    rw [cat_hi x0 x1 x2 x3 r k _ rfl (by show 256 * 1 + k.val = 256 + k.val; omega), val_main_v13_apply,
      w1_idx r n _ (Cert.NetSpec.hi k) (by show 256 * 1 + k.val = 256 + k.val; omega)]
  rw [Finset.sum_congr rfl fun k _ => hlo k, Finset.sum_congr rfl fun k _ => hhi k]

/-- Layer 1 at (r, n). -/
theorem l1_eq (x0 x1 : (⟨S4096x40960, .f32⟩ : BufTy).Contents (Elt Ideal)) (x2 : (⟨S256x40960, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal)) (r : Fin 4096) (n : Fin 32) :
    val_main_v18 (F := Ideal) x0 x1 x2 x3 x4 x5 (ix2 r n)
      = Cert.NetSpec.l1 (Cert.NetSpec.side x0 x2 x3 r) (Cert.NetSpec.side x1 x2 x3 r)
          (fun n k => x4 (ix2 n (Cert.NetSpec.lo k))) (fun n k => x4 (ix2 n (Cert.NetSpec.hi k))) (fun n => x5 (ix1 n)) n := by
  rw [val_main_v18_apply, val_main_call2_v4_apply, val_main_call2_v3_apply, val_main_cst_4_apply,
    val_main_call2_v2_apply, val_main_call2_v1_apply, val_main_call2_v0_apply, val_main_cst_3_apply,
    val_main_v17_apply, v14_split, val_main_v16_apply, val_main_v15_apply, bias_v16_eq]
  unfold Cert.NetSpec.l1 Cert.NetSpec.clip
  rw [Ideal.minimumf_def, Ideal.maximumf_def, Ideal.addf_def, Ideal.ofBits_def, Ideal.ofBits_def]

/-! ## Layer 2 -/

theorem lidx_v20_eq (r : Fin 4096) (n : Fin 32) (k : Fin 32) : lidx_main_v20 (ix2 r n) k = ix2 r k := by
  funext a; match a with | ⟨0, _⟩ => rfl | ⟨1, _⟩ => rfl

theorem w2_idx (r : Fin 4096) (n : Fin 32) (k : Fin 32) : idx_main_v19 (ridx_main_v20 (ix2 r n) k) = ix2 n k := by
  funext a; match a with | ⟨0, _⟩ => rfl | ⟨1, _⟩ => rfl

theorem bias_v22_eq (r : Fin 4096) (n : Fin 32) : idx_main_v21 (idx_main_v22 (ix2 r n)) = ix1 n := by
  funext a; match a with | ⟨0, _⟩ => rfl

/-- Layer 2 at (r, n), over layer 1's row. -/
theorem l2_eq (x0 x1 : (⟨S4096x40960, .f32⟩ : BufTy).Contents (Elt Ideal)) (x2 : (⟨S256x40960, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (r : Fin 4096) (n : Fin 32) :
    val_main_v24 (F := Ideal) x0 x1 x2 x3 x4 x5 x6 x7 (ix2 r n)
      = Cert.NetSpec.l2 (fun k => Cert.NetSpec.l1 (Cert.NetSpec.side x0 x2 x3 r) (Cert.NetSpec.side x1 x2 x3 r)
            (fun n k => x4 (ix2 n (Cert.NetSpec.lo k))) (fun n k => x4 (ix2 n (Cert.NetSpec.hi k))) (fun n => x5 (ix1 n)) k)
          (fun n k => x6 (ix2 n k)) (fun n => x7 (ix1 n)) n := by
  rw [val_main_v24_apply, val_main_call3_v4_apply, val_main_call3_v3_apply, val_main_cst_6_apply,
    val_main_call3_v2_apply, val_main_call3_v1_apply, val_main_call3_v0_apply, val_main_cst_5_apply,
    val_main_v23_apply, val_main_v20_apply, val_main_v22_apply, val_main_v21_apply, bias_v22_eq]
  have hs : (∑ k : Fin 32, (val_main_v18 (F := Ideal) x0 x1 x2 x3 x4 x5) (lidx_main_v20 (ix2 r n) k) * (val_main_v19 (F := Ideal) x6) (ridx_main_v20 (ix2 r n) k))
      = ∑ k : Fin 32, Cert.NetSpec.l1 (Cert.NetSpec.side x0 x2 x3 r) (Cert.NetSpec.side x1 x2 x3 r)
            (fun n k => x4 (ix2 n (Cert.NetSpec.lo k))) (fun n k => x4 (ix2 n (Cert.NetSpec.hi k))) (fun n => x5 (ix1 n)) k * x6 (ix2 n k) :=
    Finset.sum_congr rfl fun k _ => by rw [val_main_v19_apply, lidx_v20_eq, w2_idx, l1_eq]
  rw [hs]
  unfold Cert.NetSpec.l2 Cert.NetSpec.clip
  rw [Ideal.minimumf_def, Ideal.maximumf_def, Ideal.addf_def, Ideal.ofBits_def, Ideal.ofBits_def]

/-! ## The output layer -/

theorem lidx_v26_eq (i : S4096x1.Idx) (r : Fin 4096) (hr : (i 0).val = r.val) (k : Fin 32) :
    lidx_main_v26 i k = ix2 r k := by
  funext a; match a with | ⟨0, _⟩ => exact Fin.ext hr | ⟨1, _⟩ => rfl

theorem w3_idx (i : S4096x1.Idx) (k : Fin 32) : idx_main_v25 (ridx_main_v26 i k) = ix2 (0 : Fin 1) k := by
  funext a
  match a with
  | ⟨0, _⟩ => exact Fin.ext (by have := idx2_lt1 i; show (i 1).val = 0; omega)
  | ⟨1, _⟩ => rfl

theorem bias_v28_eq (i : S4096x1.Idx) : idx_main_v27 (idx_main_v28 i) = ix1 (0 : Fin 1) := by
  funext a; match a with | ⟨0, _⟩ => exact Fin.ext rfl

/-- The output at position i: the three layers over the two sides' rows. -/
theorem l3_eq (x0 x1 : (⟨S4096x40960, .f32⟩ : BufTy).Contents (Elt Ideal)) (x2 : (⟨S256x40960, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S1x32, .f32⟩ : BufTy).Contents (Elt Ideal)) (x9 : (⟨S1, .f32⟩ : BufTy).Contents (Elt Ideal)) (i : S4096x1.Idx) (r : Fin 4096) (hr : (i 0).val = r.val) :
    val_main_v29 (F := Ideal) x0 x1 x2 x3 x4 x5 x6 x7 x8 x9 i
      = Cert.NetSpec.head (Cert.NetSpec.side x0 x2 x3 r) (Cert.NetSpec.side x1 x2 x3 r)
          (fun n k => x4 (ix2 n (Cert.NetSpec.lo k))) (fun n k => x4 (ix2 n (Cert.NetSpec.hi k))) (fun n => x5 (ix1 n))
          (fun n k => x6 (ix2 n k)) (fun n => x7 (ix1 n)) (fun k => x8 (ix2 (0 : Fin 1) k)) (x9 (ix1 (0 : Fin 1))) := by
  rw [val_main_v29_apply, val_main_v26_apply, val_main_v28_apply, val_main_v27_apply, bias_v28_eq]
  have hs : (∑ k : Fin 32, (val_main_v24 (F := Ideal) x0 x1 x2 x3 x4 x5 x6 x7) (lidx_main_v26 i k) * (val_main_v25 (F := Ideal) x8) (ridx_main_v26 i k))
      = ∑ k : Fin 32, Cert.NetSpec.l2 (fun k => Cert.NetSpec.l1 (Cert.NetSpec.side x0 x2 x3 r) (Cert.NetSpec.side x1 x2 x3 r)
            (fun n k => x4 (ix2 n (Cert.NetSpec.lo k))) (fun n k => x4 (ix2 n (Cert.NetSpec.hi k))) (fun n => x5 (ix1 n)) k)
          (fun n k => x6 (ix2 n k)) (fun n => x7 (ix1 n)) k * x8 (ix2 (0 : Fin 1) k) :=
    Finset.sum_congr rfl fun k _ => by rw [val_main_v25_apply, lidx_v26_eq i r hr, w3_idx, l2_eq]
  rw [hs]
  unfold Cert.NetSpec.head Cert.NetSpec.l3
  rw [Ideal.addf_def]

/-! ## The whole reference -/

/-- The reference program's result is the specification function of its ten arguments. -/
theorem ref_eq (x0 x1 : (⟨S4096x40960, .f32⟩ : BufTy).Contents (Elt Ideal)) (x2 : (⟨S256x40960, .f32⟩ : BufTy).Contents (Elt Ideal)) (x3 : (⟨S256, .f32⟩ : BufTy).Contents (Elt Ideal)) (x4 : (⟨S32x512, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S1x32, .f32⟩ : BufTy).Contents (Elt Ideal)) (x9 : (⟨S1, .f32⟩ : BufTy).Contents (Elt Ideal)) :
    Cert.ReferenceIdeal.Read.val_main_v29 (F := Ideal) x0 x1 x2 x3 x4 x5 x6 x7 x8 x9 = Cert.NetSpec.net x0 x1 x2 x3 x4 x5 x6 x7 x8 x9 := by
  funext i
  exact l3_eq x0 x1 x2 x3 x4 x5 x6 x7 x8 x9 i (i 0) rfl

end Cert.ReferenceIdeal.RefNet

end
-- ==== Proof.lean ====
/-
  The certificate of the fused feature-transform network kernel against its plain reference.

  Both programs compute, for each of 4096 positions, out = l3 (l2 (l1 (side white, side black))) with
  side(x)_h = clip (sum_j x_j W_{h j} + bias_h) over 40960 features and three small dense layers (NetSpec). The kernel
  forms the two 40960-term contractions in 20 steps of 2048 columns, accumulated from zero in a buffer it carries across
  the steps, and forms the first dense layer as two 256-term contractions (white half, black half) instead of one
  512-term contraction of the two rows side by side; the reference does each contraction in one piece. Over the extended
  reals a sum may be cut into consecutive blocks and added up block by block, a rounding to a narrower float format is
  the identity, and a matrix product into a zero accumulator is the plain contraction: so the two programs' results are
  the same function of the arguments (KFinal.run for the kernel, RefNet.ref_eq for the reference). No input needs to be
  finite for that: only + and * in finite sums are regrouped. The kernel's idealization rewrote nothing.
-/
import proofs.«102913_j46497315946985_2_alg».proof.Defs
import proofs.«102913_j46497315946985_2_alg».proof.Proof.Gen.Kernel
import proofs.«102913_j46497315946985_2_alg».proof.Proof.Gen.Kernel.Skeleton
import proofs.«102913_j46497315946985_2_alg».proof.Proof.Gen.Kernel.Launch
import proofs.«102913_j46497315946985_2_alg».proof.Proof.Gen.Kernel.Points
import proofs.«102913_j46497315946985_2_alg».proof.Proof.Gen.Kernel.Frame
import proofs.«102913_j46497315946985_2_alg».proof.Proof.Gen.KernelIdeal
import proofs.«102913_j46497315946985_2_alg».proof.Proof.Gen.KernelIdeal.Skeleton
import proofs.«102913_j46497315946985_2_alg».proof.Proof.Gen.KernelIdeal.Launch
import proofs.«102913_j46497315946985_2_alg».proof.Proof.Gen.KernelIdeal.Points
import proofs.«102913_j46497315946985_2_alg».proof.Proof.Gen.KernelIdeal.Frame
import proofs.«102913_j46497315946985_2_alg».proof.Proof.Gen.ReferenceIdeal
import proofs.«102913_j46497315946985_2_alg».proof.Proof.Gen.Pre_finite_inputs
import proofs.«102913_j46497315946985_2_alg».proof.Proof.Gen.KernelIdeal.Value
import proofs.«102913_j46497315946985_2_alg».proof.Proof.Gen.ReferenceIdeal.Run
import proofs.«102913_j46497315946985_2_alg».proof.Proof.Gen.ReferenceIdeal.Read
import proofs.«102913_j46497315946985_2_alg».proof.Proof.KFinal
import proofs.«102913_j46497315946985_2_alg».proof.Proof.RefNet
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- From memories that agree on the ten arguments, the kernel's result array ends at the network of its arguments and the
    reference's at the network of its own: one function of equal arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefNet.ref_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans ?_
  obtain ⟨a0, a1, a2, a3, a4, a5, a6, a7, a8, a9⟩ := hagree c
  show Cert.NetSpec.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
    = Cert.NetSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
